-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x1024 : Shape := ⟨3, ![32, 1024, 1024]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel

variable [Facts]

def fn {F : FTy → Type} [FloatOps F] (main_arg0 : FVec F S32x1024x1024 .f32) : IVec S_ 1 :=
  let main_v0 : FVec F S32x1024x1024 .f32 := Host.absf main_arg0
  let main_cst : FVec F S_ .f32 := constant S_ .f32 0x7F800000#32
  let main_v1 : FVec F S32x1024x1024 .f32 := broadcastInDim S32x1024x1024 ![] bcast_S_S32x1024x1024 main_cst
  let main_v2 : IVec S32x1024x1024 1 := cmpf .olt main_v0 main_v1
  let main_c : IVec S_ 1 := constantI S_ 1 1#1
  let main_v3 : IVec S_ 1 := (fun x v => Host.reduce IntOp.andi x v reducesTo_S32x1024x1024_S_d0_1_2 h_S_) main_v2 main_c
  main_v3
-- ==== Kernel.lean ====
abbrev S32x1024x1024 : Shape := ⟨3, ![32, 1024, 1024]⟩
abbrev S1x1024x1024 : Shape := ⟨3, ![1, 1024, 1024]⟩

abbrev nBuf : Space → Nat
  | .hbm => 2
  | .vmem => 4
  | .smem => 0
  | _ => 0

abbrev bufTy : (tb : Table) → Fin (tcTables nBuf tb) → BufTy
  | .hbm, ⟨0, _⟩ => ⟨S32x1024x1024, .f32⟩
  | .hbm, ⟨1, _⟩ => ⟨S32x1024x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x1024x1024_S1x1024x1024_0_0_0 : ∀ a, (![0, 0, 0] : Fin 3 → Nat) a + S1x1024x1024.size a ≤ S1x1024x1024.size a
  h_S1x1024x1024 : 0 < S1x1024x1024.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S32x1024x1024.size a
  hwx0_0 : ∀ i : grid0.Coords, EltTy.bits .f32 = 32 ∨ (Rect.block (s := S32x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S32x1024x1024.size a
  hwx0_1 : ∀ i : grid0.Coords, EltTy.bits .f32 = 32 ∨ (Rect.block (s := S32x1024x1024) S1x1024x1024.size (cc0_transform_1 i) (hinb0_1 i)).WholeWords (EltTy.packing .f32)

variable [Facts₀]

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x1024x1024 : Shape := ⟨3, ![32, 1024, 1024]⟩
abbrev S33554432 : Shape := ⟨1, ![33554432]⟩
abbrev S_ : Shape := ⟨0, ![]⟩
abbrev S33554432x1 : Shape := ⟨2, ![33554432, 1]⟩

abbrev nBuf : Space → Nat
  | .hbm => 62
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S33554432, .f32⟩
  | .hbm, ⟨2, _⟩ => ⟨S33554432, .f32⟩
  | .hbm, ⟨3, _⟩ => ⟨S_, .f32⟩
  | .hbm, ⟨4, _⟩ => ⟨S33554432, .f32⟩
  | .hbm, ⟨5, _⟩ => ⟨S33554432, .i1⟩
  | .hbm, ⟨6, _⟩ => ⟨S33554432, .i32⟩
  | .hbm, ⟨7, _⟩ => ⟨S_, .i32⟩
  | .hbm, ⟨8, _⟩ => ⟨S_, .i32⟩
  | .hbm, ⟨9, _⟩ => ⟨S33554432, .i32⟩
  | .hbm, ⟨10, _⟩ => ⟨S_, .i32⟩
  | .hbm, ⟨11, _⟩ => ⟨S33554432, .i32⟩
  | .hbm, ⟨12, _⟩ => ⟨S33554432, .i32⟩
  | .hbm, ⟨13, _⟩ => ⟨S_, .i32⟩
  | .hbm, ⟨14, _⟩ => ⟨S_, .i32⟩
  | .hbm, ⟨15, _⟩ => ⟨S33554432, .i32⟩
  | .hbm, ⟨16, _⟩ => ⟨S33554432, .i32⟩
  | .hbm, ⟨17, _⟩ => ⟨S_, .f32⟩
  | .hbm, ⟨18, _⟩ => ⟨S33554432, .f32⟩
  | .hbm, ⟨19, _⟩ => ⟨S_, .i32⟩
  | .hbm, ⟨20, _⟩ => ⟨S33554432, .i32⟩
  | .hbm, ⟨21, _⟩ => ⟨S33554432, .i1⟩
  | .hbm, ⟨22, _⟩ => ⟨S_, .i32⟩
  | .hbm, ⟨23, _⟩ => ⟨S33554432, .i32⟩
  | .hbm, ⟨24, _⟩ => ⟨S33554432, .i32⟩
  | .hbm, ⟨25, _⟩ => ⟨S33554432, .i32⟩
  | .hbm, ⟨26, _⟩ => ⟨S33554432x1, .i32⟩
  | .hbm, ⟨27, _⟩ => ⟨S33554432, .f32⟩
  | .hbm, ⟨28, _⟩ => ⟨S_, .i32⟩
  | .hbm, ⟨29, _⟩ => ⟨S33554432, .i32⟩
  | .hbm, ⟨30, _⟩ => ⟨S33554432, .i32⟩
  | .hbm, ⟨31, _⟩ => ⟨S_, .i32⟩
  | .hbm, ⟨32, _⟩ => ⟨S33554432, .i32⟩
  | .hbm, ⟨33, _⟩ => ⟨S33554432, .i1⟩
  | .hbm, ⟨34, _⟩ => ⟨S_, .i32⟩
  | .hbm, ⟨35, _⟩ => ⟨S33554432, .i32⟩
  | .hbm, ⟨36, _⟩ => ⟨S33554432, .i32⟩
  | .hbm, ⟨37, _⟩ => ⟨S33554432, .i32⟩
  | .hbm, ⟨38, _⟩ => ⟨S33554432x1, .i32⟩
  | .hbm, ⟨39, _⟩ => ⟨S33554432, .i32⟩
  | .hbm, ⟨40, _⟩ => ⟨S33554432, .i32⟩
  | .hbm, ⟨41, _⟩ => ⟨S_, .i32⟩
  | .hbm, ⟨42, _⟩ => ⟨S_, .i32⟩
  | .hbm, ⟨43, _⟩ => ⟨S33554432, .i32⟩
  | .hbm, ⟨44, _⟩ => ⟨S33554432, .i32⟩
  | .hbm, ⟨45, _⟩ => ⟨S33554432, .i1⟩
  | .hbm, ⟨46, _⟩ => ⟨S_, .i32⟩
  | .hbm, ⟨47, _⟩ => ⟨S_, .i32⟩
  | .hbm, ⟨48, _⟩ => ⟨S33554432, .i32⟩
  | .hbm, ⟨49, _⟩ => ⟨S33554432, .i32⟩
  | .hbm, ⟨50, _⟩ => ⟨S_, .f32⟩
  | .hbm, ⟨51, _⟩ => ⟨S33554432, .f32⟩
  | .hbm, ⟨52, _⟩ => ⟨S_, .i32⟩
  | .hbm, ⟨53, _⟩ => ⟨S33554432, .i32⟩
  | .hbm, ⟨54, _⟩ => ⟨S33554432, .i1⟩
  | .hbm, ⟨55, _⟩ => ⟨S_, .i32⟩
  | .hbm, ⟨56, _⟩ => ⟨S33554432, .i32⟩
  | .hbm, ⟨57, _⟩ => ⟨S33554432, .i32⟩
  | .hbm, ⟨58, _⟩ => ⟨S33554432, .i32⟩
  | .hbm, ⟨59, _⟩ => ⟨S33554432x1, .i32⟩
  | .hbm, ⟨60, _⟩ => ⟨S33554432, .f32⟩
  | .hbm, ⟨61, _⟩ => ⟨S32x1024x1024, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_call0_c : Ref sig .tc := ⟨.hbm, 7, rfl⟩
abbrev main_call0_call0_v0 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_call1_v0 : Ref sig .tc := ⟨.hbm, 14, rfl⟩
abbrev main_call1_v1 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_c_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_c_5 : Ref sig .tc := ⟨.hbm, 31, rfl⟩
abbrev main_v18 : Ref sig .tc := ⟨.hbm, 32, rfl⟩
abbrev main_v19 : Ref sig .tc := ⟨.hbm, 33, rfl⟩
abbrev main_c_6 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_8 : Ref sig .tc := ⟨.hbm, 46, rfl⟩
abbrev main_call2_v0 : Ref sig .tc := ⟨.hbm, 47, rfl⟩
abbrev main_call2_v1 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_c_10 : Ref sig .tc := ⟨.hbm, 52, rfl⟩
abbrev main_v32 : Ref sig .tc := ⟨.hbm, 53, rfl⟩
abbrev main_v33 : Ref sig .tc := ⟨.hbm, 54, rfl⟩
abbrev main_c_11 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩

abbrev nD : Nat := 1
abbrev τ : Topo := Topo.v7x

variable {F : FTy → Type} [FloatOps F]

class Facts₀ : Prop where
  shapeCasts_S32x1024x1024_S33554432 : S32x1024x1024.ShapeCasts S33554432
  bcast_S_S33554432 : S_.BroadcastsInDim S33554432 (![] : Fin 0 → Fin S33554432.rank)
  natLt_1_32 : 1 < 32
  bcast_S_S_ : S_.BroadcastsInDim S_ (![] : Fin 0 → Fin S_.rank)
  reduceWindows_S33554432_S33554432_w33554432s1p33554431_0 : S33554432.ReduceWindows (![33554432] : Fin 1 → Nat) ![1] ![33554431] ![0] S33554432
  h_S_ : 0 < S_.numel
  bcast_S33554432_S33554432x1_0 : S33554432.BroadcastsInDim S33554432x1 (![0] : Fin 1 → Fin S33554432x1.rank)
  reducesTo_S33554432_S_d0 : S33554432.ReducesTo [0] S_
  shapeCasts_S33554432_S32x1024x1024 : S33554432.ShapeCasts S32x1024x1024
  scatter_S33554432_S33554432x1_S33554432_n_0_0_1_wf : ScatterDims.WF S33554432 S33554432x1 S33554432 [] [0] [0] 1

variable [Facts₀]

def scatter_S33554432_S33554432x1_S33554432_n_0_0_1 : ScatterDims S33554432 S33554432x1 S33554432 where
  updateWindowDims := []
  insertedWindowDims := [0]
  scatterDimsToOperandDims := [0]
  indexVectorDim := 1
  wf := scatter_S33554432_S33554432x1_S33554432_n_0_0_1_wf

class Facts : Prop extends Facts₀ where

variable [Facts]
-- ==== Proof.RefTerm.lean ====
/-
  The reference's result as one term of its argument, stage by stage.

  With n = 32·1024·1024 and a the argument flattened row-major to length n:
    keep   k(i) = [ |a(i)| > 1/2 ]                                     (a one-bit word)
    csum   c(i) = k(0) + … + k(i)                                       (a windowed sum: window n, padded n − 1 low)
    slot   s(i) = c(i) − 1 where k(i) holds, n elsewhere                (n is out of range: such an update is dropped)
    values v    = zeros with a(i) written at s(i)                       (the kept entries, compacted in order)
    indices j   = zeros with i written at s(i)                          (and where each came from)
    nnz    z    = k(0) + … + k(n − 1)
    sidx   t(p) = j(p) for p < z, n elsewhere
    dense  d    = zeros with v(p) written at t(p)
  and the result is d at the argument's shape. `wrap` is the negative-index normalisation jax puts in front of
  every scatter (an index below zero has n added); no index here is negative.
-/
import proofs.«121514_j64252710748372_2_alg».proof.Proof.Gen.ReferenceIdeal
import Idealize.ShloMosaic.PureOps

noncomputable section

namespace Cert.ReferenceIdeal.RefTerm

open Cert.ReferenceIdeal Cert.ReferenceIdeal.Gen Idealize.ShloMosaic

variable {F : FTy → Type} [FloatOps F]

/-- The flat shape. -/
abbrev L : Shape := S33554432

/-- The one scatter record of the program. -/
abbrev sd : ScatterDims S33554432 S33554432x1 S33554432 := scatter_S33554432_S33554432x1_S33554432_n_0_0_1

/-- A 32-bit word at every flat index. -/
def bc (v : BitVec 32) : IVec L 32 := broadcastInDim L ![] bcast_S_S33554432 (constantI S_ 32 v)

/-- Zero at every flat index. -/
def zerosF : FVec F L .f32 := broadcastInDim L ![] bcast_S_S33554432 (constant S_ .f32 0x00000000#32)

/-- The argument flattened row-major. -/
def flat (x : FVec F S32x1024x1024 .f32) : FVec F L .f32 := shapeCast L x shapeCasts_S32x1024x1024_S33554432

/-- Which entries are kept: absolute value above one half. -/
def keep (a : FVec F L .f32) : IVec L 1 :=
  cmpf .ogt (Host.absf a) (broadcastInDim L ![] bcast_S_S33554432 (constant S_ .f32 0x3F000000#32))

/-- The running count of kept entries, as the windowed sum the program states. -/
def csum (k : IVec L 1) : IVec L 32 :=
  Host.reduceWindow IntOp.addi ![33554432] ![1] ![33554431] ![0] (extui 32 k natLt_1_32)
    (broadcastInDim S_ ![] bcast_S_S_ (constantI S_ 32 0#32))
    reduceWindows_S33554432_S33554432_w33554432s1p33554431_0 h_S_

/-- The destination of entry i: its rank among the kept entries, or n when it is dropped. -/
def slot (k : IVec L 1) : IVec L 32 := select k (subi (csum k) (bc 1#32)) (bc 33554432#32)

/-- An index below zero has n added. -/
def wrap (s : IVec L 32) : IVec L 32 := select (cmpi .slt s (bc 0#32)) (addi s (bc 33554432#32)) s

/-- A vector of indices as the one-column table a scatter reads. -/
def col (s : IVec L 32) : IVec S33554432x1 32 := broadcastInDim S33554432x1 ![0] bcast_S33554432_S33554432x1_0 s

/-- The kept values, compacted. -/
def values (a : FVec F L .f32) : FVec F L .f32 := Host.scatter sd (fun _ b => b) zerosF (col (wrap (slot (keep a)))) a

/-- The positions the kept values came from, compacted alike. -/
def indices (k : IVec L 1) : IVec L 32 := Host.scatter sd (fun _ b => b) (bc 0#32) (col (wrap (slot k))) (iotaInDim L 32 0)

/-- How many entries are kept. -/
def nnz (k : IVec L 1) : IVec S_ 32 :=
  Host.reduce IntOp.addi (extui 32 k natLt_1_32) (constantI S_ 32 0#32) reducesTo_S33554432_S_d0 h_S_

/-- Where compacted slot p goes back to: its stored position when p is below the count, n (dropped) otherwise. -/
def sidx (k : IVec L 1) : IVec L 32 :=
  select (cmpi .slt (iotaInDim L 32 0) (broadcastInDim L ![] bcast_S_S33554432 (nnz k))) (indices k) (bc 33554432#32)

/-- The compacted values scattered back. -/
def dense (a : FVec F L .f32) : FVec F L .f32 :=
  Host.scatter sd (fun _ b => b) zerosF (col (wrap (sidx (keep a)))) (values a)

/-- The reference's result. -/
def out (x : FVec F S32x1024x1024 .f32) : FVec F S32x1024x1024 .f32 :=
  shapeCast S32x1024x1024 (dense (flat x)) shapeCasts_S33554432_S32x1024x1024

end Cert.ReferenceIdeal.RefTerm

end
-- ==== Proof.RefRun.lean ====
/-
  The reference program's run. Its @main is a straight line of host operations once the three module-local
  functions it calls (the running count, itself calling the windowed sum, and the two selections against a
  broadcast scalar) are unfolded at their call sites over the buffers each call names. The line is listed here
  as one list; every weakly fair execution of it terminates with each buffer at the fold of the operations'
  results over the launch contents, and no operation writes the argument's buffer.
-/
import proofs.«121514_j64252710748372_2_alg».proof.Proof.Gen.ReferenceIdeal
import proofs.«121514_j64252710748372_2_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
  Idealize.ShloMosaic.StableHlo

variable {F : FTy → Type} [FloatOps F]

/-- @main's sixty-one operations in order, the calls unfolded: the running count is four (the one-bit keep
    flags widened to 32 bits, the scalar zero, its rank-zero broadcast, the windowed sum), each selection
    against a scalar is three (the scalar converted to its own type, broadcast, the select); around them
    @main's own fifty-one. -/
abbrev ops : List (HloOp τ sig (Elt F)) :=
  [ StableHlo.reshape main_arg0 main_v0 rfl shapeCasts_S32x1024x1024_S33554432,
    StableHlo.unary main_v0 main_v1 (Host.absf : (⟨S33554432, .f32⟩ : BufTy).Contents (Elt F) → (⟨S33554432, .f32⟩ : BufTy).Contents (Elt F)),
    StableHlo.nullary main_cst (constant S_ .f32 0x3F000000#32),
    StableHlo.unary main_cst main_v2 (broadcastInDim S33554432 ![] bcast_S_S33554432 : (⟨S_, .f32⟩ : BufTy).Contents (Elt F) → (⟨S33554432, .f32⟩ : BufTy).Contents (Elt F)),
    StableHlo.binary main_v1 main_v2 main_v3 (cmpf .ogt : (⟨S33554432, .f32⟩ : BufTy).Contents (Elt F) → (⟨S33554432, .f32⟩ : BufTy).Contents (Elt F) → (⟨S33554432, .i1⟩ : BufTy).Contents (Elt F)),
    TRef.unary (.of main_v3 : TRef sig ⟨S33554432, .i1⟩) main_call0.v0 (extui 32 · natLt_1_32),
    TRef.nullary main_call0.call0.c (constantI S_ 32 0#32),
    TRef.unary main_call0.call0.c main_call0.call0.v0 (broadcastInDim S_ ![] bcast_S_S_),
    TRef.binary main_call0.v0 main_call0.call0.v0 main_call0.call0.v1 (fun x v => Host.reduceWindow IntOp.addi ![33554432] ![1] ![33554431] ![0] x v reduceWindows_S33554432_S33554432_w33554432s1p33554431_0 h_S_),
    StableHlo.nullary main_c (constantI S_ 32 1#32),
    StableHlo.unary main_c main_v5 (broadcastInDim S33554432 ![] bcast_S_S33554432 : (⟨S_, .i32⟩ : BufTy).Contents (Elt F) → (⟨S33554432, .i32⟩ : BufTy).Contents (Elt F)),
    StableHlo.binary main_v4 main_v5 main_v6 (subi : (⟨S33554432, .i32⟩ : BufTy).Contents (Elt F) → (⟨S33554432, .i32⟩ : BufTy).Contents (Elt F) → (⟨S33554432, .i32⟩ : BufTy).Contents (Elt F)),
    StableHlo.nullary main_c_0 (constantI S_ 32 33554432#32),
    TRef.unary (.of main_c_0 : TRef sig ⟨S_, .i32⟩) main_call1.v0 id,
    TRef.unary main_call1.v0 main_call1.v1 (broadcastInDim S33554432 ![] bcast_S_S33554432),
    TRef.ternary (.of main_v3 : TRef sig ⟨S33554432, .i1⟩) (.of main_v6 : TRef sig ⟨S33554432, .i32⟩) main_call1.v1 main_call1.v2 select,
    StableHlo.nullary main_cst_1 (constant S_ .f32 0x00000000#32),
    StableHlo.unary main_cst_1 main_v8 (broadcastInDim S33554432 ![] bcast_S_S33554432 : (⟨S_, .f32⟩ : BufTy).Contents (Elt F) → (⟨S33554432, .f32⟩ : BufTy).Contents (Elt F)),
    StableHlo.nullary main_c_2 (constantI S_ 32 0#32),
    StableHlo.unary main_c_2 main_v9 (broadcastInDim S33554432 ![] bcast_S_S33554432 : (⟨S_, .i32⟩ : BufTy).Contents (Elt F) → (⟨S33554432, .i32⟩ : BufTy).Contents (Elt F)),
    StableHlo.binary main_v7 main_v9 main_v10 (cmpi .slt : (⟨S33554432, .i32⟩ : BufTy).Contents (Elt F) → (⟨S33554432, .i32⟩ : BufTy).Contents (Elt F) → (⟨S33554432, .i1⟩ : BufTy).Contents (Elt F)),
    StableHlo.nullary main_c_3 (constantI S_ 32 33554432#32),
    StableHlo.unary main_c_3 main_v11 (broadcastInDim S33554432 ![] bcast_S_S33554432 : (⟨S_, .i32⟩ : BufTy).Contents (Elt F) → (⟨S33554432, .i32⟩ : BufTy).Contents (Elt F)),
    StableHlo.binary main_v7 main_v11 main_v12 (addi : (⟨S33554432, .i32⟩ : BufTy).Contents (Elt F) → (⟨S33554432, .i32⟩ : BufTy).Contents (Elt F) → (⟨S33554432, .i32⟩ : BufTy).Contents (Elt F)),
    StableHlo.ternary main_v10 main_v12 main_v7 main_v13 (select : (⟨S33554432, .i1⟩ : BufTy).Contents (Elt F) → (⟨S33554432, .i32⟩ : BufTy).Contents (Elt F) → (⟨S33554432, .i32⟩ : BufTy).Contents (Elt F) → (⟨S33554432, .i32⟩ : BufTy).Contents (Elt F)),
    StableHlo.unary main_v13 main_v14 (broadcastInDim S33554432x1 ![0] bcast_S33554432_S33554432x1_0 : (⟨S33554432, .i32⟩ : BufTy).Contents (Elt F) → (⟨S33554432x1, .i32⟩ : BufTy).Contents (Elt F)),
    StableHlo.ternary main_v8 main_v14 main_v0 main_v15 ((fun x i u => Host.scatter scatter_S33554432_S33554432x1_S33554432_n_0_0_1 (fun _ b => b) x i u) : (⟨S33554432, .f32⟩ : BufTy).Contents (Elt F) → (⟨S33554432x1, .i32⟩ : BufTy).Contents (Elt F) → (⟨S33554432, .f32⟩ : BufTy).Contents (Elt F) → (⟨S33554432, .f32⟩ : BufTy).Contents (Elt F)),
    StableHlo.nullary main_c_4 (constantI S_ 32 0#32),
    StableHlo.unary main_c_4 main_v16 (broadcastInDim S33554432 ![] bcast_S_S33554432 : (⟨S_, .i32⟩ : BufTy).Contents (Elt F) → (⟨S33554432, .i32⟩ : BufTy).Contents (Elt F)),
    StableHlo.nullary main_v17 (iotaInDim S33554432 32 0),
    StableHlo.nullary main_c_5 (constantI S_ 32 0#32),
    StableHlo.unary main_c_5 main_v18 (broadcastInDim S33554432 ![] bcast_S_S33554432 : (⟨S_, .i32⟩ : BufTy).Contents (Elt F) → (⟨S33554432, .i32⟩ : BufTy).Contents (Elt F)),
    StableHlo.binary main_v7 main_v18 main_v19 (cmpi .slt : (⟨S33554432, .i32⟩ : BufTy).Contents (Elt F) → (⟨S33554432, .i32⟩ : BufTy).Contents (Elt F) → (⟨S33554432, .i1⟩ : BufTy).Contents (Elt F)),
    StableHlo.nullary main_c_6 (constantI S_ 32 33554432#32),
    StableHlo.unary main_c_6 main_v20 (broadcastInDim S33554432 ![] bcast_S_S33554432 : (⟨S_, .i32⟩ : BufTy).Contents (Elt F) → (⟨S33554432, .i32⟩ : BufTy).Contents (Elt F)),
    StableHlo.binary main_v7 main_v20 main_v21 (addi : (⟨S33554432, .i32⟩ : BufTy).Contents (Elt F) → (⟨S33554432, .i32⟩ : BufTy).Contents (Elt F) → (⟨S33554432, .i32⟩ : BufTy).Contents (Elt F)),
    StableHlo.ternary main_v19 main_v21 main_v7 main_v22 (select : (⟨S33554432, .i1⟩ : BufTy).Contents (Elt F) → (⟨S33554432, .i32⟩ : BufTy).Contents (Elt F) → (⟨S33554432, .i32⟩ : BufTy).Contents (Elt F) → (⟨S33554432, .i32⟩ : BufTy).Contents (Elt F)),
    StableHlo.unary main_v22 main_v23 (broadcastInDim S33554432x1 ![0] bcast_S33554432_S33554432x1_0 : (⟨S33554432, .i32⟩ : BufTy).Contents (Elt F) → (⟨S33554432x1, .i32⟩ : BufTy).Contents (Elt F)),
    StableHlo.ternary main_v16 main_v23 main_v17 main_v24 ((fun x i u => Host.scatter scatter_S33554432_S33554432x1_S33554432_n_0_0_1 (fun _ b => b) x i u) : (⟨S33554432, .i32⟩ : BufTy).Contents (Elt F) → (⟨S33554432x1, .i32⟩ : BufTy).Contents (Elt F) → (⟨S33554432, .i32⟩ : BufTy).Contents (Elt F) → (⟨S33554432, .i32⟩ : BufTy).Contents (Elt F)),
    StableHlo.unary main_v3 main_v25 ((extui 32 · natLt_1_32) : (⟨S33554432, .i1⟩ : BufTy).Contents (Elt F) → (⟨S33554432, .i32⟩ : BufTy).Contents (Elt F)),
    StableHlo.nullary main_c_7 (constantI S_ 32 0#32),
    StableHlo.binary main_v25 main_c_7 main_v26 ((fun x v => Host.reduce IntOp.addi x v reducesTo_S33554432_S_d0 h_S_) : (⟨S33554432, .i32⟩ : BufTy).Contents (Elt F) → (⟨S_, .i32⟩ : BufTy).Contents (Elt F) → (⟨S_, .i32⟩ : BufTy).Contents (Elt F)),
    StableHlo.nullary main_v27 (iotaInDim S33554432 32 0),
    StableHlo.unary main_v26 main_v28 (broadcastInDim S33554432 ![] bcast_S_S33554432 : (⟨S_, .i32⟩ : BufTy).Contents (Elt F) → (⟨S33554432, .i32⟩ : BufTy).Contents (Elt F)),
    StableHlo.binary main_v27 main_v28 main_v29 (cmpi .slt : (⟨S33554432, .i32⟩ : BufTy).Contents (Elt F) → (⟨S33554432, .i32⟩ : BufTy).Contents (Elt F) → (⟨S33554432, .i1⟩ : BufTy).Contents (Elt F)),
    StableHlo.nullary main_c_8 (constantI S_ 32 33554432#32),
    TRef.unary (.of main_c_8 : TRef sig ⟨S_, .i32⟩) main_call2.v0 id,
    TRef.unary main_call2.v0 main_call2.v1 (broadcastInDim S33554432 ![] bcast_S_S33554432),
    TRef.ternary (.of main_v29 : TRef sig ⟨S33554432, .i1⟩) (.of main_v24 : TRef sig ⟨S33554432, .i32⟩) main_call2.v1 main_call2.v2 select,
    StableHlo.nullary main_cst_9 (constant S_ .f32 0x00000000#32),
    StableHlo.unary main_cst_9 main_v31 (broadcastInDim S33554432 ![] bcast_S_S33554432 : (⟨S_, .f32⟩ : BufTy).Contents (Elt F) → (⟨S33554432, .f32⟩ : BufTy).Contents (Elt F)),
    StableHlo.nullary main_c_10 (constantI S_ 32 0#32),
    StableHlo.unary main_c_10 main_v32 (broadcastInDim S33554432 ![] bcast_S_S33554432 : (⟨S_, .i32⟩ : BufTy).Contents (Elt F) → (⟨S33554432, .i32⟩ : BufTy).Contents (Elt F)),
    StableHlo.binary main_v30 main_v32 main_v33 (cmpi .slt : (⟨S33554432, .i32⟩ : BufTy).Contents (Elt F) → (⟨S33554432, .i32⟩ : BufTy).Contents (Elt F) → (⟨S33554432, .i1⟩ : BufTy).Contents (Elt F)),
    StableHlo.nullary main_c_11 (constantI S_ 32 33554432#32),
    StableHlo.unary main_c_11 main_v34 (broadcastInDim S33554432 ![] bcast_S_S33554432 : (⟨S_, .i32⟩ : BufTy).Contents (Elt F) → (⟨S33554432, .i32⟩ : BufTy).Contents (Elt F)),
    StableHlo.binary main_v30 main_v34 main_v35 (addi : (⟨S33554432, .i32⟩ : BufTy).Contents (Elt F) → (⟨S33554432, .i32⟩ : BufTy).Contents (Elt F) → (⟨S33554432, .i32⟩ : BufTy).Contents (Elt F)),
    StableHlo.ternary main_v33 main_v35 main_v30 main_v36 (select : (⟨S33554432, .i1⟩ : BufTy).Contents (Elt F) → (⟨S33554432, .i32⟩ : BufTy).Contents (Elt F) → (⟨S33554432, .i32⟩ : BufTy).Contents (Elt F) → (⟨S33554432, .i32⟩ : BufTy).Contents (Elt F)),
    StableHlo.unary main_v36 main_v37 (broadcastInDim S33554432x1 ![0] bcast_S33554432_S33554432x1_0 : (⟨S33554432, .i32⟩ : BufTy).Contents (Elt F) → (⟨S33554432x1, .i32⟩ : BufTy).Contents (Elt F)),
    StableHlo.ternary main_v31 main_v37 main_v15 main_v38 ((fun x i u => Host.scatter scatter_S33554432_S33554432x1_S33554432_n_0_0_1 (fun _ b => b) x i u) : (⟨S33554432, .f32⟩ : BufTy).Contents (Elt F) → (⟨S33554432x1, .i32⟩ : BufTy).Contents (Elt F) → (⟨S33554432, .f32⟩ : BufTy).Contents (Elt F) → (⟨S33554432, .f32⟩ : BufTy).Contents (Elt F)),
    StableHlo.reshape main_v38 main_v39 rfl shapeCasts_S33554432_S32x1024x1024 ]

-- one bind per operation re-associated: the rewrite under the chain recurses once per statement
set_option maxRecDepth 2048 in
/-- @main is that straight line: the functions' definitions unfolded at their calls and the records at their
    fields, both sides are one chain of steps once sequencing is re-associated. -/
theorem main_eq (c : Dev nD) : main (F := F) c = seq ops := by
  simp only [main, fn_cumsum.body, fn_cumsum_0.body, fn_where.body, seq, bind_assoc, pure_bind]

attribute [local irreducible] Host.reduce Host.scatter Host.reduceWindow in
set_option maxRecDepth 8192 in
/-- No operation writes the argument's buffer: the fold leaves it as it was. -/
theorem arg0_eq (V : Valuation τ sig (Elt F)) :
    after ops V (main_arg0 : DevRef τ sig) = V (main_arg0 : DevRef τ sig) := by
  simp only [after_cons, after_nil]
  rfl

/-- The signature scopes no buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- Every operation of the line touches TensorCore references only. -/
theorem ops_sub : (ops : List (HloOp τ sig (Elt F))).Forall fun op => op.bufs ⊆ tcRefs τ sig :=
  ⟨reshape_bufs_sub .., unary_bufs_sub .., nullary_bufs_sub .., unary_bufs_sub .., binary_bufs_sub .., unary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., nullary_bufs_sub .., unary_bufs_sub ..,
    nullary_bufs_sub .., unary_bufs_sub .., binary_bufs_sub .., nullary_bufs_sub .., unary_bufs_sub .., binary_bufs_sub ..,
    ternary_bufs_sub .., unary_bufs_sub .., ternary_bufs_sub .., nullary_bufs_sub .., unary_bufs_sub .., nullary_bufs_sub ..,
    nullary_bufs_sub .., unary_bufs_sub .., binary_bufs_sub .., nullary_bufs_sub .., unary_bufs_sub .., binary_bufs_sub ..,
    ternary_bufs_sub .., unary_bufs_sub .., ternary_bufs_sub .., unary_bufs_sub .., nullary_bufs_sub .., binary_bufs_sub ..,
    nullary_bufs_sub .., unary_bufs_sub .., binary_bufs_sub .., nullary_bufs_sub .., unary_bufs_sub .., unary_bufs_sub ..,
    ternary_bufs_sub .., nullary_bufs_sub .., unary_bufs_sub .., nullary_bufs_sub .., unary_bufs_sub .., binary_bufs_sub ..,
    nullary_bufs_sub .., unary_bufs_sub .., binary_bufs_sub .., ternary_bufs_sub .., unary_bufs_sub .., ternary_bufs_sub ..,
    reshape_bufs_sub ..⟩

/-- On every device, for any float values, from any memory with zero counters: every weakly fair execution of
    @main on the TensorCores terminates, and every final state has each TensorCore buffer at the operations'
    fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefOut.lean ====
/-
  The reference's result buffer after its line of operations is the composed term `RefTerm.out` of the argument.

  The operands have n = 32·1024·1024 elements, so the three folds over them (the scatter, the whole sum and the
  windowed sum) are never opened. The line is cut into nine consecutive pieces, one per stage of the term: the
  flattening and the keep flags; the running count; the slots; the compacted values; the compacted positions; the
  total count; the positions to send back to; the scatter back; the final re-shaping. For each piece, run from ANY
  contents W of the buffers, the buffer it produces holds its stage's function of the buffers it reads, and the
  buffers that later pieces still read are left as they were. Composing the nine from the launch contents gives the
  term.
-/
import proofs.«121514_j64252710748372_2_alg».proof.Proof.RefRun

noncomputable section

namespace Cert.ReferenceIdeal.RefRun

open Cert.ReferenceIdeal Cert.ReferenceIdeal.Gen Idealize.ShloMosaic Idealize.ShloMosaic.TcCoe Idealize.SL.Sem
  Idealize.ShloMosaic.StableHlo

variable {F : FTy → Type} [FloatOps F]

/-- The buffers after two lines run one after the other are the second line's from the first line's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- Operations 1 to 5 of the line. -/
abbrev c1 : List (HloOp τ sig (Elt F)) :=
  [ StableHlo.reshape main_arg0 main_v0 rfl shapeCasts_S32x1024x1024_S33554432,
    StableHlo.unary main_v0 main_v1 (Host.absf : (⟨S33554432, .f32⟩ : BufTy).Contents (Elt F) → (⟨S33554432, .f32⟩ : BufTy).Contents (Elt F)),
    StableHlo.nullary main_cst (constant S_ .f32 0x3F000000#32),
    StableHlo.unary main_cst main_v2 (broadcastInDim S33554432 ![] bcast_S_S33554432 : (⟨S_, .f32⟩ : BufTy).Contents (Elt F) → (⟨S33554432, .f32⟩ : BufTy).Contents (Elt F)),
    StableHlo.binary main_v1 main_v2 main_v3 (cmpf .ogt : (⟨S33554432, .f32⟩ : BufTy).Contents (Elt F) → (⟨S33554432, .f32⟩ : BufTy).Contents (Elt F) → (⟨S33554432, .i1⟩ : BufTy).Contents (Elt F)) ]

/-- Operations 6 to 9 of the line. -/
abbrev c2 : List (HloOp τ sig (Elt F)) :=
  [ TRef.unary (.of main_v3 : TRef sig ⟨S33554432, .i1⟩) main_call0.v0 (extui 32 · natLt_1_32),
    TRef.nullary main_call0.call0.c (constantI S_ 32 0#32),
    TRef.unary main_call0.call0.c main_call0.call0.v0 (broadcastInDim S_ ![] bcast_S_S_),
    TRef.binary main_call0.v0 main_call0.call0.v0 main_call0.call0.v1 (fun x v => Host.reduceWindow IntOp.addi ![33554432] ![1] ![33554431] ![0] x v reduceWindows_S33554432_S33554432_w33554432s1p33554431_0 h_S_) ]

/-- Operations 10 to 16 of the line. -/
abbrev c3 : List (HloOp τ sig (Elt F)) :=
  [ StableHlo.nullary main_c (constantI S_ 32 1#32),
    StableHlo.unary main_c main_v5 (broadcastInDim S33554432 ![] bcast_S_S33554432 : (⟨S_, .i32⟩ : BufTy).Contents (Elt F) → (⟨S33554432, .i32⟩ : BufTy).Contents (Elt F)),
    StableHlo.binary main_v4 main_v5 main_v6 (subi : (⟨S33554432, .i32⟩ : BufTy).Contents (Elt F) → (⟨S33554432, .i32⟩ : BufTy).Contents (Elt F) → (⟨S33554432, .i32⟩ : BufTy).Contents (Elt F)),
    StableHlo.nullary main_c_0 (constantI S_ 32 33554432#32),
    TRef.unary (.of main_c_0 : TRef sig ⟨S_, .i32⟩) main_call1.v0 id,
    TRef.unary main_call1.v0 main_call1.v1 (broadcastInDim S33554432 ![] bcast_S_S33554432),
    TRef.ternary (.of main_v3 : TRef sig ⟨S33554432, .i1⟩) (.of main_v6 : TRef sig ⟨S33554432, .i32⟩) main_call1.v1 main_call1.v2 select ]

/-- Operations 17 to 27 of the line. -/
abbrev c4 : List (HloOp τ sig (Elt F)) :=
  [ StableHlo.nullary main_cst_1 (constant S_ .f32 0x00000000#32),
    StableHlo.unary main_cst_1 main_v8 (broadcastInDim S33554432 ![] bcast_S_S33554432 : (⟨S_, .f32⟩ : BufTy).Contents (Elt F) → (⟨S33554432, .f32⟩ : BufTy).Contents (Elt F)),
    StableHlo.nullary main_c_2 (constantI S_ 32 0#32),
    StableHlo.unary main_c_2 main_v9 (broadcastInDim S33554432 ![] bcast_S_S33554432 : (⟨S_, .i32⟩ : BufTy).Contents (Elt F) → (⟨S33554432, .i32⟩ : BufTy).Contents (Elt F)),
    StableHlo.binary main_v7 main_v9 main_v10 (cmpi .slt : (⟨S33554432, .i32⟩ : BufTy).Contents (Elt F) → (⟨S33554432, .i32⟩ : BufTy).Contents (Elt F) → (⟨S33554432, .i1⟩ : BufTy).Contents (Elt F)),
    StableHlo.nullary main_c_3 (constantI S_ 32 33554432#32),
    StableHlo.unary main_c_3 main_v11 (broadcastInDim S33554432 ![] bcast_S_S33554432 : (⟨S_, .i32⟩ : BufTy).Contents (Elt F) → (⟨S33554432, .i32⟩ : BufTy).Contents (Elt F)),
    StableHlo.binary main_v7 main_v11 main_v12 (addi : (⟨S33554432, .i32⟩ : BufTy).Contents (Elt F) → (⟨S33554432, .i32⟩ : BufTy).Contents (Elt F) → (⟨S33554432, .i32⟩ : BufTy).Contents (Elt F)),
    StableHlo.ternary main_v10 main_v12 main_v7 main_v13 (select : (⟨S33554432, .i1⟩ : BufTy).Contents (Elt F) → (⟨S33554432, .i32⟩ : BufTy).Contents (Elt F) → (⟨S33554432, .i32⟩ : BufTy).Contents (Elt F) → (⟨S33554432, .i32⟩ : BufTy).Contents (Elt F)),
    StableHlo.unary main_v13 main_v14 (broadcastInDim S33554432x1 ![0] bcast_S33554432_S33554432x1_0 : (⟨S33554432, .i32⟩ : BufTy).Contents (Elt F) → (⟨S33554432x1, .i32⟩ : BufTy).Contents (Elt F)),
    StableHlo.ternary main_v8 main_v14 main_v0 main_v15 ((fun x i u => Host.scatter scatter_S33554432_S33554432x1_S33554432_n_0_0_1 (fun _ b => b) x i u) : (⟨S33554432, .f32⟩ : BufTy).Contents (Elt F) → (⟨S33554432x1, .i32⟩ : BufTy).Contents (Elt F) → (⟨S33554432, .f32⟩ : BufTy).Contents (Elt F) → (⟨S33554432, .f32⟩ : BufTy).Contents (Elt F)) ]

/-- Operations 28 to 39 of the line. -/
abbrev c5 : List (HloOp τ sig (Elt F)) :=
  [ StableHlo.nullary main_c_4 (constantI S_ 32 0#32),
    StableHlo.unary main_c_4 main_v16 (broadcastInDim S33554432 ![] bcast_S_S33554432 : (⟨S_, .i32⟩ : BufTy).Contents (Elt F) → (⟨S33554432, .i32⟩ : BufTy).Contents (Elt F)),
    StableHlo.nullary main_v17 (iotaInDim S33554432 32 0),
    StableHlo.nullary main_c_5 (constantI S_ 32 0#32),
    StableHlo.unary main_c_5 main_v18 (broadcastInDim S33554432 ![] bcast_S_S33554432 : (⟨S_, .i32⟩ : BufTy).Contents (Elt F) → (⟨S33554432, .i32⟩ : BufTy).Contents (Elt F)),
    StableHlo.binary main_v7 main_v18 main_v19 (cmpi .slt : (⟨S33554432, .i32⟩ : BufTy).Contents (Elt F) → (⟨S33554432, .i32⟩ : BufTy).Contents (Elt F) → (⟨S33554432, .i1⟩ : BufTy).Contents (Elt F)),
    StableHlo.nullary main_c_6 (constantI S_ 32 33554432#32),
    StableHlo.unary main_c_6 main_v20 (broadcastInDim S33554432 ![] bcast_S_S33554432 : (⟨S_, .i32⟩ : BufTy).Contents (Elt F) → (⟨S33554432, .i32⟩ : BufTy).Contents (Elt F)),
    StableHlo.binary main_v7 main_v20 main_v21 (addi : (⟨S33554432, .i32⟩ : BufTy).Contents (Elt F) → (⟨S33554432, .i32⟩ : BufTy).Contents (Elt F) → (⟨S33554432, .i32⟩ : BufTy).Contents (Elt F)),
    StableHlo.ternary main_v19 main_v21 main_v7 main_v22 (select : (⟨S33554432, .i1⟩ : BufTy).Contents (Elt F) → (⟨S33554432, .i32⟩ : BufTy).Contents (Elt F) → (⟨S33554432, .i32⟩ : BufTy).Contents (Elt F) → (⟨S33554432, .i32⟩ : BufTy).Contents (Elt F)),
    StableHlo.unary main_v22 main_v23 (broadcastInDim S33554432x1 ![0] bcast_S33554432_S33554432x1_0 : (⟨S33554432, .i32⟩ : BufTy).Contents (Elt F) → (⟨S33554432x1, .i32⟩ : BufTy).Contents (Elt F)),
    StableHlo.ternary main_v16 main_v23 main_v17 main_v24 ((fun x i u => Host.scatter scatter_S33554432_S33554432x1_S33554432_n_0_0_1 (fun _ b => b) x i u) : (⟨S33554432, .i32⟩ : BufTy).Contents (Elt F) → (⟨S33554432x1, .i32⟩ : BufTy).Contents (Elt F) → (⟨S33554432, .i32⟩ : BufTy).Contents (Elt F) → (⟨S33554432, .i32⟩ : BufTy).Contents (Elt F)) ]

/-- Operations 40 to 42 of the line. -/
abbrev c6 : List (HloOp τ sig (Elt F)) :=
  [ StableHlo.unary main_v3 main_v25 ((extui 32 · natLt_1_32) : (⟨S33554432, .i1⟩ : BufTy).Contents (Elt F) → (⟨S33554432, .i32⟩ : BufTy).Contents (Elt F)),
    StableHlo.nullary main_c_7 (constantI S_ 32 0#32),
    StableHlo.binary main_v25 main_c_7 main_v26 ((fun x v => Host.reduce IntOp.addi x v reducesTo_S33554432_S_d0 h_S_) : (⟨S33554432, .i32⟩ : BufTy).Contents (Elt F) → (⟨S_, .i32⟩ : BufTy).Contents (Elt F) → (⟨S_, .i32⟩ : BufTy).Contents (Elt F)) ]

/-- Operations 43 to 49 of the line. -/
abbrev c7 : List (HloOp τ sig (Elt F)) :=
  [ StableHlo.nullary main_v27 (iotaInDim S33554432 32 0),
    StableHlo.unary main_v26 main_v28 (broadcastInDim S33554432 ![] bcast_S_S33554432 : (⟨S_, .i32⟩ : BufTy).Contents (Elt F) → (⟨S33554432, .i32⟩ : BufTy).Contents (Elt F)),
    StableHlo.binary main_v27 main_v28 main_v29 (cmpi .slt : (⟨S33554432, .i32⟩ : BufTy).Contents (Elt F) → (⟨S33554432, .i32⟩ : BufTy).Contents (Elt F) → (⟨S33554432, .i1⟩ : BufTy).Contents (Elt F)),
    StableHlo.nullary main_c_8 (constantI S_ 32 33554432#32),
    TRef.unary (.of main_c_8 : TRef sig ⟨S_, .i32⟩) main_call2.v0 id,
    TRef.unary main_call2.v0 main_call2.v1 (broadcastInDim S33554432 ![] bcast_S_S33554432),
    TRef.ternary (.of main_v29 : TRef sig ⟨S33554432, .i1⟩) (.of main_v24 : TRef sig ⟨S33554432, .i32⟩) main_call2.v1 main_call2.v2 select ]

/-- Operations 50 to 60 of the line. -/
abbrev c8 : List (HloOp τ sig (Elt F)) :=
  [ StableHlo.nullary main_cst_9 (constant S_ .f32 0x00000000#32),
    StableHlo.unary main_cst_9 main_v31 (broadcastInDim S33554432 ![] bcast_S_S33554432 : (⟨S_, .f32⟩ : BufTy).Contents (Elt F) → (⟨S33554432, .f32⟩ : BufTy).Contents (Elt F)),
    StableHlo.nullary main_c_10 (constantI S_ 32 0#32),
    StableHlo.unary main_c_10 main_v32 (broadcastInDim S33554432 ![] bcast_S_S33554432 : (⟨S_, .i32⟩ : BufTy).Contents (Elt F) → (⟨S33554432, .i32⟩ : BufTy).Contents (Elt F)),
    StableHlo.binary main_v30 main_v32 main_v33 (cmpi .slt : (⟨S33554432, .i32⟩ : BufTy).Contents (Elt F) → (⟨S33554432, .i32⟩ : BufTy).Contents (Elt F) → (⟨S33554432, .i1⟩ : BufTy).Contents (Elt F)),
    StableHlo.nullary main_c_11 (constantI S_ 32 33554432#32),
    StableHlo.unary main_c_11 main_v34 (broadcastInDim S33554432 ![] bcast_S_S33554432 : (⟨S_, .i32⟩ : BufTy).Contents (Elt F) → (⟨S33554432, .i32⟩ : BufTy).Contents (Elt F)),
    StableHlo.binary main_v30 main_v34 main_v35 (addi : (⟨S33554432, .i32⟩ : BufTy).Contents (Elt F) → (⟨S33554432, .i32⟩ : BufTy).Contents (Elt F) → (⟨S33554432, .i32⟩ : BufTy).Contents (Elt F)),
    StableHlo.ternary main_v33 main_v35 main_v30 main_v36 (select : (⟨S33554432, .i1⟩ : BufTy).Contents (Elt F) → (⟨S33554432, .i32⟩ : BufTy).Contents (Elt F) → (⟨S33554432, .i32⟩ : BufTy).Contents (Elt F) → (⟨S33554432, .i32⟩ : BufTy).Contents (Elt F)),
    StableHlo.unary main_v36 main_v37 (broadcastInDim S33554432x1 ![0] bcast_S33554432_S33554432x1_0 : (⟨S33554432, .i32⟩ : BufTy).Contents (Elt F) → (⟨S33554432x1, .i32⟩ : BufTy).Contents (Elt F)),
    StableHlo.ternary main_v31 main_v37 main_v15 main_v38 ((fun x i u => Host.scatter scatter_S33554432_S33554432x1_S33554432_n_0_0_1 (fun _ b => b) x i u) : (⟨S33554432, .f32⟩ : BufTy).Contents (Elt F) → (⟨S33554432x1, .i32⟩ : BufTy).Contents (Elt F) → (⟨S33554432, .f32⟩ : BufTy).Contents (Elt F) → (⟨S33554432, .f32⟩ : BufTy).Contents (Elt F)) ]

/-- Operations 61 to 61 of the line. -/
abbrev c9 : List (HloOp τ sig (Elt F)) :=
  [ StableHlo.reshape main_v38 main_v39 rfl shapeCasts_S33554432_S32x1024x1024 ]

/-- The line is its nine pieces in order. -/
theorem ops_split : (ops : List (HloOp τ sig (Elt F))) = c1 ++ (c2 ++ (c3 ++ (c4 ++ (c5 ++ (c6 ++ (c7 ++ (c8 ++ c9))))))) := rfl

set_option maxRecDepth 8192

/-! ## Each piece, from any contents: what it produces (`r…`) and what it leaves alone (`p…`) -/

attribute [local irreducible] Host.reduce Host.scatter Host.reduceWindow in
theorem r1_v0 (W : Valuation τ sig (Elt F)) : after c1 W (main_v0 : DevRef τ sig) = RefTerm.flat (W (main_arg0 : DevRef τ sig)) := by
  after_results_simp
  rfl

attribute [local irreducible] Host.reduce Host.scatter Host.reduceWindow in
theorem r1_v3 (W : Valuation τ sig (Elt F)) : after c1 W (main_v3 : DevRef τ sig) = RefTerm.keep (RefTerm.flat (W (main_arg0 : DevRef τ sig))) := by
  after_results_simp
  rfl

attribute [local irreducible] Host.reduce Host.scatter Host.reduceWindow in
theorem r2_v4 (W : Valuation τ sig (Elt F)) : after c2 W (main_v4 : DevRef τ sig) = RefTerm.csum (W (main_v3 : DevRef τ sig)) := by
  after_results_simp
  rfl

theorem p2_v0 (W : Valuation τ sig (Elt F)) : after c2 W (main_v0 : DevRef τ sig) = W (main_v0 : DevRef τ sig) := by
  after_results_simp

theorem p2_v3 (W : Valuation τ sig (Elt F)) : after c2 W (main_v3 : DevRef τ sig) = W (main_v3 : DevRef τ sig) := by
  after_results_simp

attribute [local irreducible] Host.reduce Host.scatter Host.reduceWindow in
theorem r3_v7 (W : Valuation τ sig (Elt F)) : after c3 W (main_v7 : DevRef τ sig) = select (W (main_v3 : DevRef τ sig)) (subi (W (main_v4 : DevRef τ sig)) (RefTerm.bc 1#32)) (RefTerm.bc 33554432#32) := by
  after_results_simp
  rfl

theorem p3_v0 (W : Valuation τ sig (Elt F)) : after c3 W (main_v0 : DevRef τ sig) = W (main_v0 : DevRef τ sig) := by
  after_results_simp

theorem p3_v3 (W : Valuation τ sig (Elt F)) : after c3 W (main_v3 : DevRef τ sig) = W (main_v3 : DevRef τ sig) := by
  after_results_simp

attribute [local irreducible] Host.reduce Host.scatter Host.reduceWindow in
theorem r4_v15 (W : Valuation τ sig (Elt F)) : after c4 W (main_v15 : DevRef τ sig) = Host.scatter RefTerm.sd (fun _ b => b) RefTerm.zerosF (RefTerm.col (RefTerm.wrap (W (main_v7 : DevRef τ sig)))) (W (main_v0 : DevRef τ sig)) := by
  after_results_simp
  rfl

theorem p4_v3 (W : Valuation τ sig (Elt F)) : after c4 W (main_v3 : DevRef τ sig) = W (main_v3 : DevRef τ sig) := by
  after_results_simp

theorem p4_v7 (W : Valuation τ sig (Elt F)) : after c4 W (main_v7 : DevRef τ sig) = W (main_v7 : DevRef τ sig) := by
  after_results_simp

attribute [local irreducible] Host.reduce Host.scatter Host.reduceWindow in
theorem r5_v24 (W : Valuation τ sig (Elt F)) : after c5 W (main_v24 : DevRef τ sig) = Host.scatter RefTerm.sd (fun _ b => b) (RefTerm.bc 0#32) (RefTerm.col (RefTerm.wrap (W (main_v7 : DevRef τ sig)))) (iotaInDim RefTerm.L 32 0) := by
  after_results_simp
  rfl

theorem p5_v3 (W : Valuation τ sig (Elt F)) : after c5 W (main_v3 : DevRef τ sig) = W (main_v3 : DevRef τ sig) := by
  after_results_simp

theorem p5_v15 (W : Valuation τ sig (Elt F)) : after c5 W (main_v15 : DevRef τ sig) = W (main_v15 : DevRef τ sig) := by
  after_results_simp

attribute [local irreducible] Host.reduce Host.scatter Host.reduceWindow in
theorem r6_v26 (W : Valuation τ sig (Elt F)) : after c6 W (main_v26 : DevRef τ sig) = RefTerm.nnz (W (main_v3 : DevRef τ sig)) := by
  after_results_simp
  rfl

theorem p6_v15 (W : Valuation τ sig (Elt F)) : after c6 W (main_v15 : DevRef τ sig) = W (main_v15 : DevRef τ sig) := by
  after_results_simp

theorem p6_v24 (W : Valuation τ sig (Elt F)) : after c6 W (main_v24 : DevRef τ sig) = W (main_v24 : DevRef τ sig) := by
  after_results_simp

attribute [local irreducible] Host.reduce Host.scatter Host.reduceWindow in
theorem r7_v30 (W : Valuation τ sig (Elt F)) : after c7 W (main_v30 : DevRef τ sig) = select (cmpi .slt (iotaInDim RefTerm.L 32 0) (broadcastInDim RefTerm.L ![] bcast_S_S33554432 (W (main_v26 : DevRef τ sig)))) (W (main_v24 : DevRef τ sig)) (RefTerm.bc 33554432#32) := by
  after_results_simp
  rfl

theorem p7_v15 (W : Valuation τ sig (Elt F)) : after c7 W (main_v15 : DevRef τ sig) = W (main_v15 : DevRef τ sig) := by
  after_results_simp

attribute [local irreducible] Host.reduce Host.scatter Host.reduceWindow in
theorem r8_v38 (W : Valuation τ sig (Elt F)) : after c8 W (main_v38 : DevRef τ sig) = Host.scatter RefTerm.sd (fun _ b => b) RefTerm.zerosF (RefTerm.col (RefTerm.wrap (W (main_v30 : DevRef τ sig)))) (W (main_v15 : DevRef τ sig)) := by
  after_results_simp
  rfl

attribute [local irreducible] Host.reduce Host.scatter Host.reduceWindow in
theorem r9_v39 (W : Valuation τ sig (Elt F)) : after c9 W (main_v39 : DevRef τ sig) = shapeCast S32x1024x1024 (W (main_v38 : DevRef τ sig)) shapeCasts_S33554432_S32x1024x1024 := by
  after_results_simp
  rfl

/-! ## The nine composed -/

/-- After the whole line the result buffer holds `RefTerm.out` of the argument's contents. -/
theorem out_eq (V : Valuation τ sig (Elt F)) :
    after ops V (main_v39 : DevRef τ sig) = Cert.ReferenceIdeal.RefTerm.out (V (main_arg0 : DevRef τ sig)) := by
  rw [ops_split]
  simp only [after_append]
  rw [r9_v39, r8_v38, r7_v30, p7_v15, r6_v26, p6_v15, p6_v24, r5_v24, p5_v3, p5_v15, r4_v15, p4_v3, p4_v7,
    r3_v7, p3_v0, p3_v3, r2_v4, p2_v0, p2_v3, r1_v0, r1_v3]
  rfl

/-- On every device, for any float values, from any memory with zero counters: every weakly fair execution of
    @main terminates with the result buffer at `RefTerm.out` of the argument's launch contents and the argument
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v39) = Cert.ReferenceIdeal.RefTerm.out (m ((c.tc : Thread nD τ).loc main_arg0))
      ∧ r.2.mem ((c.tc : Thread nD τ).loc main_arg0) = m ((c.tc : Thread nD τ).loc main_arg0) :=
  (θ_run defs _ _).mono (fun _ h c => ⟨(h c main_v39).trans (out_eq _), (h c main_arg0).trans (arg0_eq _)⟩)
    (run_main m ρ)

end Cert.ReferenceIdeal.RefRun

end
-- ==== Proof.ScatterIdx.lean ====
/-
  Where an update of the program's one-column scatters lands.

  The scatter reads, for update position j, the single index word at row j of a one-column table; the table here is
  always a vector of words s laid out as a column, so the word is s(j). Read as a signed integer and not clamped,
  it is the target position when it lies inside the operand, and the update is dropped otherwise. Hence update j
  targets position k exactly when the signed value of s(j) is k.
-/
import proofs.«121514_j64252710748372_2_alg».proof.Proof.RefTerm
import Idealize.ShloMosaic.Lib.ValueIdx
import Idealize.ShloMosaic.Lib.Pipeline.Value

noncomputable section

namespace Cert.ReferenceIdeal.RefTerm

open Cert.ReferenceIdeal Cert.ReferenceIdeal.Gen Idealize.ShloMosaic Idealize.ShloMosaic.ValueIdx

/-- The column table at row i holds the vector's word at i. -/
theorem col_apply (s : IVec L 32) (i : S33554432x1.Idx) : col s i = s (ix1 ⟨(i 0).val, idx2_lt0 i⟩) := by
  unfold col
  refine broadcastInDim_apply _ _ s i _ ?_
  intro a
  match a with
  | ⟨0, _⟩ => rfl

/-- The start of update j's window on the operand's one axis is the signed value of the word at j. -/
theorem start_col (s : IVec L 32) (j : L.Idx) (a : Fin 1) : sd.start j (col s) a = (s j).toInt := by
  match a with
  | ⟨0, _⟩ =>
    show sd.start j (col s) (0 : Fin 1) = _
    unfold ScatterDims.start
    rw [dif_pos (by decide : (0 : Fin S33554432.rank) ∈ sd.scatterDimsToOperandDims)]
    rw [col_apply]
    refine congrArg (fun z => (s z).toInt) ?_
    funext b
    match b with
    | ⟨0, _⟩ => rfl

/-- The operand's one axis is an inserted window axis: the window coordinate is zero. -/
theorem window_zero (j : L.Idx) (a : Fin 1) : sd.window j a = 0 := by
  unfold ScatterDims.window
  have hk : sd.sKept = [] := by decide
  have ha : a ∉ sd.sKept := by rw [hk]; exact List.not_mem_nil
  rw [dif_neg ha]

/-- Update j targets position k exactly when the signed value of the index word at j is k. -/
theorem resultIdx_col (s : IVec L 32) (j k : L.Idx) :
    sd.resultIdx? j (col s) = some k ↔ (s j).toInt = ((k 0).val : ℤ) := by
  have hk : (k 0).val < 33554432 := (k 0).isLt
  unfold ScatterDims.resultIdx?
  constructor
  · intro h
    split at h
    · rename_i hin
      have e := Option.some.inj h
      have e0 : ((sd.start j (col s) 0 + (sd.window j 0 : ℤ)).toNat) = (k 0).val := by
        rw [← e]
      rw [start_col, window_zero] at e0
      have h0 := (hin 0).1
      rw [start_col, window_zero] at h0
      omega
    · cases h
  · intro h
    have hin : ∀ a : Fin 1, 0 ≤ sd.start j (col s) a + (sd.window j a : ℤ) ∧
        sd.start j (col s) a + (sd.window j a : ℤ) < (S33554432.size a : ℤ) := by
      intro a
      rw [start_col, window_zero, h]
      match a with
      | ⟨0, _⟩ =>
        refine ⟨by omega, ?_⟩
        show ((k 0).val : ℤ) + ((0 : ℕ) : ℤ) < ((33554432 : ℕ) : ℤ)
        omega
    rw [dif_pos hin]
    refine congrArg some (funext fun a => Fin.ext ?_)
    match a with
    | ⟨0, _⟩ =>
      show (sd.start j (col s) 0 + (sd.window j 0 : ℤ)).toNat = (k 0).val
      rw [start_col, window_zero, h]
      omega

end Cert.ReferenceIdeal.RefTerm

end
-- ==== Proof.LibScatterSet.lean ====
/-
  A host scatter whose body returns the update (`x.at[idx].set(v)`), read at one position of the result.

  The scatter is a left fold over the update positions: each update whose target lies inside the operand overwrites
  the element there, the others are dropped. So an element that no update targets keeps the operand's value, and an
  element that some update targets — all the updates targeting it carrying one value v — ends at v, whatever the
  order of the updates.
-/
import Idealize.ShloMosaic.PureOps

namespace ScatterSet

open Idealize.ShloMosaic

section Fold

variable {α β ι : Type} [DecidableEq ι]

/-- A fold of overwriting steps leaves a position no step targets as it was. `R n` is step `n`'s target (if any),
    `step` overwrites the target and nothing else. -/
theorem foldl_miss (R : β → Option ι) (step : (ι → α) → β → (ι → α))
    (hsome : ∀ r n i i', R n = some i → i' ≠ i → step r n i' = r i')
    (hnone : ∀ r n, R n = none → step r n = r) (k : ι) :
    ∀ (l : List β) (r : ι → α), (∀ n ∈ l, R n ≠ some k) → l.foldl step r k = r k
  | [], _, _ => rfl
  | a :: l, r, h => by
    rw [List.foldl_cons, foldl_miss R step hsome hnone k l _ fun n hn => h n (List.mem_cons_of_mem _ hn)]
    have ha : R a ≠ some k := h a List.mem_cons_self
    cases hR : R a with
    | none => rw [hnone r a hR]
    | some i => exact hsome r a i k hR (fun e => ha (by rw [hR, e]))

/-- A fold of overwriting steps: when every step targeting position `k` writes `v` there, and some step targets
    it (or it held `v` to begin with), it ends at `v`. -/
theorem foldl_hit (R : β → Option ι) (U : β → α) (step : (ι → α) → β → (ι → α))
    (hsome : ∀ r n i i', R n = some i → i' ≠ i → step r n i' = r i')
    (hsame : ∀ r n i, R n = some i → step r n i = U n)
    (hnone : ∀ r n, R n = none → step r n = r) (k : ι) (v : α) :
    ∀ (l : List β) (r : ι → α), (∀ n ∈ l, R n = some k → U n = v) → ((∃ n ∈ l, R n = some k) ∨ r k = v) →
      l.foldl step r k = v
  | [], r, _, h => by
    rcases h with ⟨n, hn, _⟩ | h
    · cases hn
    · exact h
  | a :: l, r, hall, h => by
    rw [List.foldl_cons]
    refine foldl_hit R U step hsome hsame hnone k v l _ (fun n hn => hall n (List.mem_cons_of_mem _ hn)) ?_
    have hstep : R a = some k → step r a k = v := fun e => (hsame r a k e).trans (hall a List.mem_cons_self e)
    rcases h with ⟨n, hn, hR⟩ | h
    · rcases List.mem_cons.1 hn with rfl | hn
      · exact Or.inr (hstep hR)
      · exact Or.inl ⟨n, hn, hR⟩
    · refine Or.inr ?_
      cases hR : R a with
      | none => rw [hnone r a hR]; exact h
      | some i =>
        by_cases e : k = i
        · subst e; exact hstep hR
        · rw [hsome r a i k hR e]; exact h

end Fold

variable {α : Type} {s si u : Shape} {w : Nat}

/-- A position that no update targets keeps the operand's element. -/
theorem scatter_set_of_miss (d : ScatterDims s si u) (x : s.Idx → α) (idx : IVec si w) (upd : u.Idx → α) (k : s.Idx)
    (h : ∀ j : u.Idx, d.resultIdx? j idx ≠ some k) :
    Host.scatter d (fun _ b => b) x idx upd k = x k := by
  unfold Host.scatter
  refine foldl_miss (fun n => d.resultIdx? (u.rowMajor.symm n) idx) _ ?_ ?_ k _ x (fun n _ => h _)
  · intro r n i i' hR hne
    simp only [hR]
    exact if_neg hne
  · intro r n hR
    simp only [hR]

/-- A position that some update targets, every update targeting it carrying the value `v`, ends at `v`. -/
theorem scatter_set_of_hit (d : ScatterDims s si u) (x : s.Idx → α) (idx : IVec si w) (upd : u.Idx → α) (k : s.Idx)
    (v : α) (hex : ∃ j : u.Idx, d.resultIdx? j idx = some k) (hall : ∀ j : u.Idx, d.resultIdx? j idx = some k → upd j = v) :
    Host.scatter d (fun _ b => b) x idx upd k = v := by
  unfold Host.scatter
  obtain ⟨j, hj⟩ := hex
  refine foldl_hit (fun n => d.resultIdx? (u.rowMajor.symm n) idx) (fun n => upd (u.rowMajor.symm n)) _ ?_ ?_ ?_ k v _ x
    (fun n _ hn => hall _ hn) (Or.inl ⟨u.rowMajor j, List.mem_finRange _, ?_⟩)
  · intro r n i i' hR hne
    simp only [hR]
    exact if_neg hne
  · intro r n i hR
    simp only [hR]
    exact if_pos trivial
  · intro r n hR
    simp only [hR]
  · show d.resultIdx? (u.rowMajor.symm (u.rowMajor j)) idx = some k
    rw [Equiv.symm_apply_apply]; exact hj

end ScatterSet
-- ==== Proof.LibPrefixCount.lean ====
/-
  Counting the true positions of a predicate on the naturals below a bound, and the two facts that make
  "the rank of a kept position among the kept positions" a bijection onto an initial segment:
  distinct kept positions have distinct ranks, and every rank below the total is some kept position's.
-/
import Mathlib.Data.Nat.Basic
import Mathlib.Tactic

namespace PrefixCount

/-- `cnt p k`: how many `i < k` have `p i`. -/
def cnt (p : ℕ → Bool) : ℕ → ℕ
  | 0 => 0
  | k + 1 => cnt p k + (if p k then 1 else 0)

@[simp] theorem cnt_zero (p : ℕ → Bool) : cnt p 0 = 0 := rfl

theorem cnt_succ (p : ℕ → Bool) (k : ℕ) : cnt p (k + 1) = cnt p k + (if p k then 1 else 0) := rfl

theorem cnt_succ_of_true {p : ℕ → Bool} {k : ℕ} (h : p k = true) : cnt p (k + 1) = cnt p k + 1 := by
  rw [cnt_succ, if_pos h]

theorem cnt_succ_of_false {p : ℕ → Bool} {k : ℕ} (h : p k = false) : cnt p (k + 1) = cnt p k := by
  rw [cnt_succ, h]; simp

/-- At most every position counts. -/
theorem cnt_le (p : ℕ → Bool) (k : ℕ) : cnt p k ≤ k := by
  induction k with
  | zero => simp
  | succ k ih => rw [cnt_succ]; split <;> omega

/-- The count grows with the bound. -/
theorem cnt_mono (p : ℕ → Bool) {k l : ℕ} (h : k ≤ l) : cnt p k ≤ cnt p l := by
  induction l with
  | zero => have : k = 0 := by omega
            subst this; exact le_refl _
  | succ l ih =>
    rcases Nat.lt_or_ge k (l + 1) with hlt | hge
    · have := ih (by omega); rw [cnt_succ]; omega
    · have : k = l + 1 := by omega
      subst this; exact le_refl _

/-- A kept position is counted: the count just above it is positive. -/
theorem cnt_pos_of_true {p : ℕ → Bool} {k : ℕ} (h : p k = true) : 0 < cnt p (k + 1) := by
  rw [cnt_succ_of_true h]; omega

/-- Two kept positions with the same inclusive count are the same position. -/
theorem eq_of_cnt_eq {p : ℕ → Bool} {i j : ℕ} (hi : p i = true) (hj : p j = true)
    (h : cnt p (i + 1) = cnt p (j + 1)) : i = j := by
  rcases Nat.lt_trichotomy i j with hlt | heq | hgt
  · have h1 : cnt p (i + 1) ≤ cnt p j := cnt_mono p (by omega)
    rw [cnt_succ_of_true hj] at h; omega
  · exact heq
  · have h1 : cnt p (j + 1) ≤ cnt p i := cnt_mono p (by omega)
    rw [cnt_succ_of_true hi] at h; omega

/-- Every rank below the total is attained: for `s < cnt p n` some kept `i < n` has inclusive count `s + 1`. -/
theorem exists_of_lt_cnt (p : ℕ → Bool) (n : ℕ) {s : ℕ} (h : s < cnt p n) :
    ∃ i, i < n ∧ p i = true ∧ cnt p (i + 1) = s + 1 := by
  induction n with
  | zero => simp at h
  | succ n ih =>
    rw [cnt_succ] at h
    by_cases hp : p n = true
    · rw [if_pos hp] at h
      rcases Nat.lt_or_ge s (cnt p n) with hlt | hge
      · obtain ⟨i, hi, hpi, hc⟩ := ih hlt
        exact ⟨i, by omega, hpi, hc⟩
      · exact ⟨n, by omega, hp, by rw [cnt_succ_of_true hp]; omega⟩
    · rw [if_neg hp] at h
      obtain ⟨i, hi, hpi, hc⟩ := ih (by omega)
      exact ⟨i, by omega, hpi, hc⟩

/-- A kept position below `n` has its inclusive count at most the total. -/
theorem cnt_succ_le_total (p : ℕ → Bool) {i n : ℕ} (hi : i < n) : cnt p (i + 1) ≤ cnt p n :=
  cnt_mono p (by omega)

end PrefixCount
-- ==== Proof.LibWords.lean ====
/-
  Thirty-two-bit words that hold small natural numbers: below 2^31 a word read signed is the number itself, the signed
  order is the numbers' order, subtracting one is subtracting one, and distinct numbers are distinct words.
-/
import Idealize.ShloMosaic.PureOps
import Mathlib.Tactic

namespace Words

open Idealize.ShloMosaic

theorem toNat_ofNat_small {m : ℕ} (h : m < 2147483648) : (BitVec.ofNat 32 m).toNat = m := by
  rw [BitVec.toNat_ofNat]; omega

/-- A word holding a number below 2^31, read signed, is that number. -/
theorem toInt_ofNat_small {m : ℕ} (h : m < 2147483648) : (BitVec.ofNat 32 m).toInt = (m : ℤ) := by
  rw [BitVec.toInt_eq_toNat_of_lt (by rw [toNat_ofNat_small h]; omega), toNat_ofNat_small h]

/-- Words holding numbers below 2^31 are equal only when the numbers are. -/
theorem ofNat_inj_small {a b : ℕ} (ha : a < 2147483648) (hb : b < 2147483648)
    (h : BitVec.ofNat 32 a = BitVec.ofNat 32 b) : a = b := by
  have := congrArg BitVec.toNat h
  rwa [toNat_ofNat_small ha, toNat_ofNat_small hb] at this

/-- Subtracting the word one from the word of a positive number gives the word of its predecessor. -/
theorem ofNat_sub_one {c : ℕ} (h1 : 1 ≤ c) (h : c < 2147483648) : BitVec.ofNat 32 c - 1#32 = BitVec.ofNat 32 (c - 1) := by
  apply BitVec.eq_of_toNat_eq
  rw [BitVec.toNat_sub, toNat_ofNat_small h, toNat_ofNat_small (m := c - 1) (by omega)]
  have e1 : (1#32 : BitVec 32).toNat = 1 := rfl
  rw [e1]
  omega

/-- The signed comparison of two words holding numbers below 2^31 is the comparison of the numbers. -/
theorem cmpi_slt_small {a b : ℕ} (ha : a < 2147483648) (hb : b < 2147483648) :
    IntOp.cmpi .slt (BitVec.ofNat 32 a) (BitVec.ofNat 32 b) = if a < b then 1#1 else 0#1 := by
  unfold IntOp.cmpi
  show BitVec.ofBool ((BitVec.ofNat 32 a).slt (BitVec.ofNat 32 b)) = _
  rw [BitVec.slt, toInt_ofNat_small ha, toInt_ofNat_small hb]
  by_cases hab : a < b
  · rw [if_pos hab]
    have : decide ((a : ℤ) < (b : ℤ)) = true := by simpa using hab
    rw [this]; rfl
  · rw [if_neg hab]
    have : decide ((a : ℤ) < (b : ℤ)) = false := by simpa using hab
    rw [this]; rfl

/-- No word holding a number below 2^31 is below zero in the signed order. -/
theorem cmpi_slt_zero {a : ℕ} (ha : a < 2147483648) : IntOp.cmpi .slt (BitVec.ofNat 32 a) 0#32 = 0#1 := by
  have := cmpi_slt_small ha (b := 0) (by omega)
  rw [if_neg (by omega)] at this
  exact this

/-- A one-bit word is zero or one. -/
theorem bit_cases (b : BitVec 1) : b = 0#1 ∨ b = 1#1 := by
  rcases BitVec.eq_zero_or_eq_one b with h | h
  · exact Or.inl h
  · exact Or.inr h

end Words
-- ==== Proof.Stages.lean ====
/-
  The reference's stages as words and values, given that the running count and the total count are what their
  names say.

  Write p(i) for "entry i is kept" and c(i) for the number of kept entries among 0 … i. Entry i's slot is c(i) − 1
  when kept and n (out of range) otherwise; all these numbers are at most n = 2^25, far below 2^31, so the words
  that hold them read signed are the numbers themselves, none is negative, and the index normalisation in front of
  each scatter changes nothing. An update therefore lands at q exactly when its entry is kept and has c = q + 1;
  kept entries have distinct counts, so slot q receives one value: the compacted values hold a(i) at c(i) − 1 and
  the compacted positions hold i there. Reading back, slot q below the total count z is sent to the position it
  stores, and the slots from z on are dropped; every q < z is the slot of some kept entry. So position t receives
  a(t) when t is kept (from its own slot, and only from slots that stored t) and nothing when it is not.
-/
import proofs.«121514_j64252710748372_2_alg».proof.Proof.RefTerm
import proofs.«121514_j64252710748372_2_alg».proof.Proof.ScatterIdx
import proofs.«121514_j64252710748372_2_alg».proof.Proof.LibScatterSet
import proofs.«121514_j64252710748372_2_alg».proof.Proof.LibPrefixCount
import proofs.«121514_j64252710748372_2_alg».proof.Proof.LibWords

noncomputable section

namespace Cert.ReferenceIdeal.RefTerm

open Cert.ReferenceIdeal Cert.ReferenceIdeal.Gen Idealize.ShloMosaic Idealize.ShloMosaic.ValueIdx PrefixCount

variable {F : FTy → Type} [FloatOps F]

/-- The number of flat positions, n = 32 · 1024 · 1024. -/
local notation "N" => (33554432 : ℕ)

/-- A flat index is below n. -/
theorem idx_lt (j : L.Idx) : (j 0).val < N := (j 0).isLt

/-- Two flat indices with the same coordinate are the same index. -/
theorem idx_ext {i j : L.Idx} (h : (i 0).val = (j 0).val) : i = j := by
  funext a
  match a with
  | ⟨0, _⟩ => exact Fin.ext h

/-- "Entry i is kept", as a predicate on the naturals (false from n on). -/
def kept (k : IVec L 1) : ℕ → Bool := fun i => if h : i < N then decide (k (ix1 ⟨i, h⟩) = 1#1) else false

/-- The keep bit is the indicator of `kept`. -/
theorem kept_spec (k : IVec L 1) (i : L.Idx) : k i = if kept k (i 0).val then 1#1 else 0#1 := by
  have hi : ix1 (⟨(i 0).val, idx_lt i⟩ : Fin N) = i := idx_ext rfl
  unfold kept
  rw [dif_pos (idx_lt i), hi]
  rcases Words.bit_cases (k i) with h | h
  · rw [h]; rfl
  · rw [h]; rfl

theorem kept_true_iff (k : IVec L 1) (i : L.Idx) : kept k (i 0).val = true ↔ k i = 1#1 := by
  have := kept_spec k i
  constructor
  · intro h; rw [this, if_pos h]
  · intro h
    by_contra hn
    rw [this, if_neg hn] at h
    exact absurd h (by decide)

section Counts

variable (k : IVec L 1)
  (hc : ∀ j : L.Idx, csum k j = BitVec.ofNat 32 (cnt (kept k) ((j 0).val + 1)))
  (hz : nnz k ix0 = BitVec.ofNat 32 (cnt (kept k) N))

/-- A constant vector at an index. -/
theorem bc_apply (v : BitVec 32) (j : L.Idx) : bc v j = v := rfl

/-- An integer comparison of vectors at an index. -/
theorem cmpi_at (p : CmpIPredicate) (x y : IVec L 32) (j : L.Idx) : cmpi p x y j = IntOp.cmpi p (x j) (y j) := rfl

/-- An integer difference of vectors at an index. -/
theorem subi_at (x y : IVec L 32) (j : L.Idx) : subi x y j = x j - y j := rfl

/-- The index normalisation leaves a word holding a number below 2^31 alone. -/
theorem wrap_small (s : IVec L 32) (j : L.Idx) {m : ℕ} (hm : m < 2147483648) (h : s j = BitVec.ofNat 32 m) :
    wrap s j = BitVec.ofNat 32 m := by
  unfold wrap
  rw [select_apply, cmpi_at, bc_apply, h, Words.cmpi_slt_zero hm, select_zero]

include hc in
/-- A kept entry's slot is its count less one. -/
theorem slot_kept (j : L.Idx) (hj : kept k (j 0).val = true) :
    wrap (slot k) j = BitVec.ofNat 32 (cnt (kept k) ((j 0).val + 1) - 1) := by
  have h1 : 1 ≤ cnt (kept k) ((j 0).val + 1) := cnt_pos_of_true hj
  have h2 : cnt (kept k) ((j 0).val + 1) ≤ (j 0).val + 1 := cnt_le _ _
  have hlt := idx_lt j
  refine wrap_small _ j (by omega) ?_
  unfold slot
  rw [select_apply, (kept_true_iff k j).1 hj, select_one, subi_at, hc, bc_apply]
  exact Words.ofNat_sub_one h1 (by omega)

/-- A dropped entry's slot is n. -/
theorem slot_dropped (j : L.Idx) (hj : kept k (j 0).val = false) : wrap (slot k) j = BitVec.ofNat 32 N := by
  refine wrap_small _ j (by decide) ?_
  unfold slot
  have hk : k j = 0#1 := by rw [kept_spec k j, hj]; rfl
  rw [select_apply, hk, select_zero, bc_apply]

include hc in
/-- Entry j is written to slot q exactly when it is kept and is the (q + 1)-th kept entry. -/
theorem slot_target (j q : L.Idx) :
    sd.resultIdx? j (col (wrap (slot k))) = some q ↔
      kept k (j 0).val = true ∧ cnt (kept k) ((j 0).val + 1) = (q 0).val + 1 := by
  rw [resultIdx_col]
  have hq := idx_lt q
  have hlt := idx_lt j
  cases hj : kept k (j 0).val with
  | true =>
    have h1 : 1 ≤ cnt (kept k) ((j 0).val + 1) := cnt_pos_of_true hj
    have h2 : cnt (kept k) ((j 0).val + 1) ≤ (j 0).val + 1 := cnt_le _ _
    rw [slot_kept k hc j hj, Words.toInt_ofNat_small (by omega)]
    constructor
    · intro h; exact ⟨rfl, by omega⟩
    · intro h; have := h.2; omega
  | false =>
    rw [slot_dropped k j hj, Words.toInt_ofNat_small (by decide)]
    constructor
    · intro h; exfalso; have : (N : ℤ) = 33554432 := rfl; omega
    · intro h; exact absurd h.1 (by decide)

include hc in
/-- All entries written to one slot are the same entry. -/
theorem slot_target_unique (j j' q : L.Idx) (h : sd.resultIdx? j (col (wrap (slot k))) = some q)
    (h' : sd.resultIdx? j' (col (wrap (slot k))) = some q) : j' = j := by
  obtain ⟨hp, hcj⟩ := (slot_target k hc j q).1 h
  obtain ⟨hp', hcj'⟩ := (slot_target k hc j' q).1 h'
  exact idx_ext (eq_of_cnt_eq hp' hp (by omega))

include hc in
/-- The compacted positions: slot q holds the position of the (q + 1)-th kept entry. -/
theorem indices_at (j q : L.Idx) (hj : kept k (j 0).val = true) (hq : cnt (kept k) ((j 0).val + 1) = (q 0).val + 1) :
    indices k q = BitVec.ofNat 32 (j 0).val := by
  have ht := (slot_target k hc j q).2 ⟨hj, hq⟩
  unfold indices
  refine ScatterSet.scatter_set_of_hit sd _ _ _ q _ ⟨j, ht⟩ ?_
  intro j' h'
  rw [slot_target_unique k hc j j' q ht h']
  rfl

end Counts

section Values

variable (a : FVec F L .f32)
  (hc : ∀ j : L.Idx, csum (keep a) j = BitVec.ofNat 32 (cnt (kept (keep a)) ((j 0).val + 1)))
  (hz : nnz (keep a) ix0 = BitVec.ofNat 32 (cnt (kept (keep a)) N))

include hc in
/-- The compacted values: slot q holds the (q + 1)-th kept entry. -/
theorem values_at (j q : L.Idx) (hj : kept (keep a) (j 0).val = true)
    (hq : cnt (kept (keep a)) ((j 0).val + 1) = (q 0).val + 1) : values a q = a j := by
  have ht := (slot_target (keep a) hc j q).2 ⟨hj, hq⟩
  unfold values
  refine ScatterSet.scatter_set_of_hit sd _ _ _ q _ ⟨j, ht⟩ ?_
  intro j' h'
  rw [slot_target_unique (keep a) hc j j' q ht h']

include hc hz in
/-- Where slot q is sent back to: below the total count, the position it stores, which is the (q + 1)-th kept
    entry's; from the total count on, n. -/
theorem sidx_word (q : L.Idx) :
    ((q 0).val < cnt (kept (keep a)) N → ∃ j : L.Idx, kept (keep a) (j 0).val = true ∧
        cnt (kept (keep a)) ((j 0).val + 1) = (q 0).val + 1 ∧ wrap (sidx (keep a)) q = BitVec.ofNat 32 (j 0).val) ∧
    (¬ (q 0).val < cnt (kept (keep a)) N → wrap (sidx (keep a)) q = BitVec.ofNat 32 N) := by
  have hq := idx_lt q
  have htot : cnt (kept (keep a)) N ≤ N := cnt_le _ _
  have hb : broadcastInDim L ![] bcast_S_S33554432 (nnz (keep a)) q = BitVec.ofNat 32 (cnt (kept (keep a)) N) := by
    rw [broadcastInDim_apply _ _ (nnz (keep a)) q ix0 (fun a => a.elim0), hz]
  have hcmp : cmpi .slt (iotaInDim L 32 0) (broadcastInDim L ![] bcast_S_S33554432 (nnz (keep a))) q
      = if (q 0).val < cnt (kept (keep a)) N then 1#1 else 0#1 := by
    rw [cmpi_at, hb]
    exact Words.cmpi_slt_small (by omega) (by omega)
  constructor
  · intro hlt
    obtain ⟨i, hi, hpi, hci⟩ := exists_of_lt_cnt (kept (keep a)) N hlt
    refine ⟨ix1 ⟨i, hi⟩, hpi, hci, ?_⟩
    refine wrap_small _ q (by show i < 2147483648; omega) ?_
    unfold sidx
    rw [select_apply, hcmp, if_pos hlt, select_one]
    exact indices_at (keep a) hc (ix1 ⟨i, hi⟩) q hpi hci
  · intro hge
    refine wrap_small _ q (by decide) ?_
    unfold sidx
    rw [select_apply, hcmp, if_neg hge, select_zero, bc_apply]

include hc hz in
/-- The reference at flat position t: the argument's entry when it is kept, zero when it is not. -/
theorem dense_at (t : L.Idx) : dense a t = Scalar.select (keep a t) (a t) (zerosF t) := by
  have ht := idx_lt t
  unfold dense
  cases hp : kept (keep a) (t 0).val with
  | true =>
    rw [(kept_true_iff (keep a) t).1 hp, select_one]
    have h1 : 1 ≤ cnt (kept (keep a)) ((t 0).val + 1) := cnt_pos_of_true hp
    have h2 : cnt (kept (keep a)) ((t 0).val + 1) ≤ cnt (kept (keep a)) N := cnt_succ_le_total _ ht
    have htot : cnt (kept (keep a)) N ≤ N := cnt_le _ _
    refine ScatterSet.scatter_set_of_hit sd _ _ _ t _ ⟨ix1 ⟨cnt (kept (keep a)) ((t 0).val + 1) - 1, by omega⟩, ?_⟩ ?_
    · rw [resultIdx_col]
      obtain ⟨j, hj, hcj, hw⟩ := (sidx_word a hc hz (ix1 ⟨cnt (kept (keep a)) ((t 0).val + 1) - 1, by omega⟩)).1
        (by show cnt (kept (keep a)) ((t 0).val + 1) - 1 < _; omega)
      have hjt : (j 0).val = (t 0).val := by
        refine eq_of_cnt_eq hj hp ?_
        have : cnt (kept (keep a)) ((j 0).val + 1) = cnt (kept (keep a)) ((t 0).val + 1) - 1 + 1 := hcj
        omega
      rw [hw, Words.toInt_ofNat_small (by have := idx_lt j; omega), hjt]
    · intro q hq
      rw [resultIdx_col] at hq
      by_cases hlt : (q 0).val < cnt (kept (keep a)) N
      · obtain ⟨j, hj, hcj, hw⟩ := (sidx_word a hc hz q).1 hlt
        rw [hw, Words.toInt_ofNat_small (by have := idx_lt j; omega)] at hq
        have hjt : j = t := idx_ext (by omega)
        rw [values_at a hc j q hj hcj, hjt]
      · rw [(sidx_word a hc hz q).2 hlt, Words.toInt_ofNat_small (by decide)] at hq
        exfalso; have : (N : ℤ) = 33554432 := rfl; omega
  | false =>
    have hk : keep a t = 0#1 := by rw [kept_spec (keep a) t, hp]; rfl
    rw [hk, select_zero]
    refine ScatterSet.scatter_set_of_miss sd _ _ _ t ?_
    intro q hq
    rw [resultIdx_col] at hq
    by_cases hlt : (q 0).val < cnt (kept (keep a)) N
    · obtain ⟨j, hj, hcj, hw⟩ := (sidx_word a hc hz q).1 hlt
      rw [hw, Words.toInt_ofNat_small (by have := idx_lt j; omega)] at hq
      have hjt : (j 0).val = (t 0).val := by omega
      rw [hjt, hp] at hj
      exact absurd hj (by decide)
    · rw [(sidx_word a hc hz q).2 hlt, Words.toInt_ofNat_small (by decide)] at hq
      have : (N : ℤ) = 33554432 := rfl
      omega

end Values

end Cert.ReferenceIdeal.RefTerm

end
-- ==== Proof.LibWindowCount.lean ====
/-
  Counting with the host's integer sums. A one-bit indicator of a predicate on positions, widened to 32 bits, is
  summed in two ways: over a sliding window that, at position j, covers the positions 0 … j (a running sum), and
  over the whole vector. Both sums are counts of indicated positions, read modulo 2^32.
-/
import Idealize.ShloMosaic.PureOps.Reduce
import Idealize.ShloMosaic.Lib.ValueIdx
import Mathlib.Data.BitVec
import Mathlib.Tactic
import proofs.«121514_j64252710748372_2_alg».proof.Proof.LibPrefixCount

namespace WindowCount

open Idealize.ShloMosaic Idealize.ShloMosaic.ValueIdx PrefixCount
open scoped BigOperators

/-- A left fold that adds a term g a for each list element a is the start value plus the sum of the terms. -/
theorem foldl_addi_eq_sum {ι : Type} (l : List ι) (g : ι → BitVec 32) (v : BitVec 32) :
    l.foldl (fun r a => IntOp.addi r (g a)) v = v + (l.map g).sum := by
  induction l generalizing v with
  | nil => simp
  | cons a l ih =>
    rw [List.foldl_cons, ih, List.map_cons, List.sum_cons]
    show v + g a + _ = _
    rw [add_assoc]

/-- Over the list of all m < N, when the term at m depends only on the number m: the fold is the start value
    plus the sum of the terms over the numbers below N. -/
theorem foldl_finRange_eq_sum_range (N : ℕ) (g : Fin N → BitVec 32) (G : ℕ → BitVec 32) (hg : ∀ m, g m = G m.val)
    (v : BitVec 32) :
    (List.finRange N).foldl (fun r m => IntOp.addi r (g m)) v = v + ∑ k ∈ Finset.range N, G k := by
  rw [foldl_addi_eq_sum, ← Fin.sum_univ_def, ← Fin.sum_univ_eq_sum_range]
  congr 1
  exact Finset.sum_congr rfl fun m _ => hg m

/-- The widened indicator bit is the number 0 or 1. -/
theorem setWidth_indicator (c : Bool) :
    (if c then 1#1 else 0#1 : BitVec 1).setWidth 32 = BitVec.ofNat 32 (if c then 1 else 0) := by
  cases c <;> decide

/-- The indicators of the positions below k sum to the count of indicated positions below k. -/
theorem sum_range_indicator (p : ℕ → Bool) (k : ℕ) :
    ∑ i ∈ Finset.range k, BitVec.ofNat 32 (if p i then 1 else 0) = BitVec.ofNat 32 (cnt p k) := by
  induction k with
  | zero => rfl
  | succ k ih => rw [Finset.sum_range_succ, ih, cnt_succ, BitVec.ofNat_add]

/-- A window of n positions starting lo = n - 1 before position j: its first N positions j + k - lo, k < N,
    of which those with j + k < lo fall before the vector and contribute nothing, hold the count of indicated
    positions below N - (lo - j). -/
theorem sum_range_window (p : ℕ → Bool) {n lo j : ℕ} (hlo : lo + 1 = n) (hj : j < n) (N : ℕ) (hN : N ≤ n) :
    ∑ k ∈ Finset.range N,
        (if lo ≤ j + k ∧ j + k - lo < n then BitVec.ofNat 32 (if p (j + k - lo) then 1 else 0) else 0#32)
      = BitVec.ofNat 32 (cnt p (N - (lo - j))) := by
  induction N with
  | zero => rw [Finset.sum_range_zero, Nat.zero_sub, cnt_zero]; rfl
  | succ N ih =>
    rw [Finset.sum_range_succ, ih (by omega)]
    by_cases hc : lo ≤ j + N
    · rw [if_pos ⟨hc, by omega⟩]
      have e1 : N + 1 - (lo - j) = (N - (lo - j)) + 1 := by omega
      have e2 : j + N - lo = N - (lo - j) := by omega
      rw [e1, e2, cnt_succ, BitVec.ofNat_add]
    · rw [if_neg fun h => hc h.1, BitVec.add_zero]
      have e1 : N + 1 - (lo - j) = 0 := by omega
      have e2 : N - (lo - j) = 0 := by omega
      rw [e1, e2]

/-- A rank-1 row-major position is its coordinate, read from the position's side. -/
theorem rowMajor_symm_val_one {n : ℕ} (m : Fin (⟨1, ![n]⟩ : Shape).numel) :
    (((⟨1, ![n]⟩ : Shape).rowMajor.symm m) 0).val = m.val := by
  have := Shape.rowMajor_val_one ((⟨1, ![n]⟩ : Shape).rowMajor.symm m)
  rw [Equiv.apply_symm_apply] at this
  exact this.symm

/-- A rank-1 shape has as many elements as its one axis. -/
theorem numel_one (n : ℕ) : (⟨1, ![n]⟩ : Shape).numel = n := by
  simp [Shape.numel]

/-- The element a rank-1 window reads at padded position q: the operand at q - lo when that is inside the operand,
    the padding value otherwise. -/
theorem window_term {n lo : ℕ} (x : (⟨1, ![n]⟩ : Shape).Idx → BitVec 32) (v : BitVec 32) (q : ℕ) (P : Fin 1 → ℕ)
    (hP : P 0 = q) :
    (if hin : ∀ a : Fin 1, (![lo] : Fin 1 → ℕ) a ≤ P a ∧ P a - (![lo] : Fin 1 → ℕ) a < (⟨1, ![n]⟩ : Shape).size a
      then x (fun a => ⟨P a - (![lo] : Fin 1 → ℕ) a, (hin a).2⟩) else v)
      = if hq : lo ≤ q ∧ q - lo < n then x (ix1 ⟨q - lo, hq.2⟩) else v := by
  subst hP
  by_cases hq : lo ≤ P 0 ∧ P 0 - lo < n
  · rw [dif_pos hq, dif_pos (by intro a; obtain rfl : a = 0 := Subsingleton.elim _ _; exact hq)]
    congr 1
    funext a
    obtain rfl : a = 0 := Subsingleton.elim _ _
    rfl
  · rw [dif_neg hq, dif_neg (fun h => hq (h 0))]

/-- The windowed sum with window n, stride 1, padded n − 1 low and 0 high, of a 0/1 indicator: at position j it is
    the number of indicated positions up to and including j. -/
theorem reduceWindow_count {n lo : ℕ} (hlo : lo + 1 = n) (p : ℕ → Bool)
    (b : IVec (⟨1, ![n]⟩ : Shape) 1) (hb : ∀ i : (⟨1, ![n]⟩ : Shape).Idx, b i = if p (i 0).val then 1#1 else 0#1)
    (init : IVec (⟨0, ![]⟩ : Shape) 32) (hinit : init ix0 = 0#32) (h32 : 1 < 32)
    (h : (⟨1, ![n]⟩ : Shape).ReduceWindows (![n] : Fin 1 → ℕ) ![1] ![lo] ![0] (⟨1, ![n]⟩ : Shape))
    (hu : 0 < (⟨0, ![]⟩ : Shape).numel) (j : (⟨1, ![n]⟩ : Shape).Idx) :
    Host.reduceWindow IntOp.addi ![n] ![1] ![lo] ![0] (extui 32 b h32) init h hu j
      = BitVec.ofNat 32 (cnt p ((j 0).val + 1)) := by
  have hj : (j 0).val < n := (j 0).isLt
  have hv : init (Shape.Idx.first hu) = 0#32 := by rw [eq_ix0 (Shape.Idx.first hu)]; exact hinit
  unfold Host.reduceWindow
  refine (foldl_finRange_eq_sum_range _ _
    (fun k => if lo ≤ (j 0).val + k ∧ (j 0).val + k - lo < n
      then BitVec.ofNat 32 (if p ((j 0).val + k - lo) then 1 else 0) else 0#32) ?_ _).trans ?_
  · intro m
    have hm : (((⟨1, ![n]⟩ : Shape).rowMajor.symm m) 0).val = m.val := rowMajor_symm_val_one m
    refine (window_term (n := n) (lo := lo) (extui 32 b h32) (init (Shape.Idx.first hu)) ((j 0).val + m.val) _ ?_).trans ?_
    · show (j 0).val * 1 + (((⟨1, ![n]⟩ : Shape).rowMajor.symm m) 0).val = (j 0).val + m.val
      rw [Nat.mul_one, hm]
    · by_cases hq : lo ≤ (j 0).val + m.val ∧ (j 0).val + m.val - lo < n
      · rw [dif_pos hq, if_pos hq]
        show (b _).setWidth 32 = _
        rw [hb, setWidth_indicator]
        rfl
      · rw [dif_neg hq, if_neg hq, hv]
  · show _ + ∑ k ∈ Finset.range (⟨1, ![n]⟩ : Shape).numel, _ = _
    rw [hv, BitVec.zero_add, numel_one, sum_range_window p hlo hj n le_rfl]
    have e : n - (lo - (j 0).val) = (j 0).val + 1 := by omega
    rw [e]

/-- The sum over the whole vector of a 0/1 indicator is the number of indicated positions. -/
theorem reduce_count {n : ℕ} (p : ℕ → Bool)
    (b : IVec (⟨1, ![n]⟩ : Shape) 1) (hb : ∀ i : (⟨1, ![n]⟩ : Shape).Idx, b i = if p (i 0).val then 1#1 else 0#1)
    (init : IVec (⟨0, ![]⟩ : Shape) 32) (hinit : init ix0 = 0#32) (h32 : 1 < 32)
    (h : (⟨1, ![n]⟩ : Shape).ReducesTo [0] (⟨0, ![]⟩ : Shape)) (hu : 0 < (⟨0, ![]⟩ : Shape).numel)
    (z : (⟨0, ![]⟩ : Shape).Idx) :
    Host.reduce IntOp.addi (extui 32 b h32) init h hu z = BitVec.ofNat 32 (cnt p n) := by
  have hv : init (Shape.Idx.first hu) = 0#32 := by rw [eq_ix0 (Shape.Idx.first hu)]; exact hinit
  unfold Host.reduce
  rw [List.filter_eq_self.2 fun m _ => decide_eq_true ((eq_ix0 _).trans (eq_ix0 _).symm)]
  refine (foldl_finRange_eq_sum_range _ _ (fun k => BitVec.ofNat 32 (if p k then 1 else 0)) ?_ _).trans ?_
  · intro m
    show (b _).setWidth 32 = _
    rw [hb, setWidth_indicator, rowMajor_symm_val_one]
  · rw [hv, BitVec.zero_add, numel_one, sum_range_indicator]

end WindowCount
-- ==== Proof.Bridge.lean ====
/-
  The reference's result is the thresholded argument.

  The running count of kept entries is the windowed sum the program states, and the total is its whole sum; with
  those two facts the stage lemmas give, at every flat position t, the argument's entry where |a(t)| > 1/2 and
  zero elsewhere. Flattening and un-flattening are inverse re-indexings by row-major position, so at every index
  of the three-axis array the result is the argument's entry there when its absolute value exceeds one half, and
  zero otherwise — the kernel's function. At the ideal instance the host's absolute value is the kernel's.
-/
import proofs.«121514_j64252710748372_2_alg».proof.Proof.Stages
import proofs.«121514_j64252710748372_2_alg».proof.Proof.LibWindowCount
import proofs.«121514_j64252710748372_2_alg».proof.Proof.Gen.KernelIdeal.Value

noncomputable section

namespace Cert.ReferenceIdeal.RefTerm

open Cert.ReferenceIdeal Cert.ReferenceIdeal.Gen Idealize.ShloMosaic Idealize.ShloMosaic.ValueIdx PrefixCount

/-- The windowed sum is the running count of kept entries. -/
theorem csum_count (k : IVec L 1) (j : L.Idx) :
    csum k j = BitVec.ofNat 32 (cnt (kept k) ((j 0).val + 1)) := by
  unfold csum
  exact WindowCount.reduceWindow_count (n := 33554432) (lo := 33554431) rfl (kept k) k (kept_spec k) _ rfl
    natLt_1_32 _ _ j

/-- The whole sum is the number of kept entries. -/
theorem nnz_count (k : IVec L 1) : nnz k ix0 = BitVec.ofNat 32 (cnt (kept k) 33554432) := by
  unfold nnz
  exact WindowCount.reduce_count (n := 33554432) (kept k) k (kept_spec k) _ rfl natLt_1_32 _ _ ix0

/-- Un-flattening then flattening returns to the same index. -/
theorem flat_unflat (x : FVec Ideal S32x1024x1024 .f32) (i : S32x1024x1024.Idx) :
    flat x (Shape.reshapeEquiv shapeCasts_S33554432_S32x1024x1024 i) = x i := by
  unfold flat shapeCast
  rw [Shape.reshapeEquiv_reshapeEquiv, Shape.reshapeEquiv_self]

/-- The reference's result, index by index, is the kernel's: the entry where its absolute value exceeds one half,
    zero elsewhere. -/
theorem out_eq (x : FVec Ideal S32x1024x1024 .f32) : out x = Cert.KernelIdeal.Value.G1 (F := Ideal) x := by
  funext i
  show dense (flat x) (Shape.reshapeEquiv shapeCasts_S33554432_S32x1024x1024 i) = _
  rw [dense_at (flat x) (csum_count _) (nnz_count _)]
  unfold keep
  rw [cmpf_apply]
  show Scalar.select (FloatOps.cmpf .ogt (FloatOps.hostAbsf (flat x (Shape.reshapeEquiv shapeCasts_S33554432_S32x1024x1024 i))) _)
    (flat x (Shape.reshapeEquiv shapeCasts_S33554432_S32x1024x1024 i)) _ = _
  rw [flat_unflat]
  rfl

end Cert.ReferenceIdeal.RefTerm

end
-- ==== Proof.lean ====
/-
  The certificate of a threshold mask against a compaction round trip.

  The kernel writes, at every index, the argument's entry where its absolute value exceeds one half and zero
  elsewhere. The reference flattens the argument, compacts the kept entries and their positions into the leading
  slots of two buffers (a running count gives each kept entry its slot), and scatters the compacted values back
  to their stored positions. Each kept entry keeps its own position through the round trip and is the only entry
  written there, and nothing is written at a position that is not kept, so the two results agree index by index
  on the extended reals; no finiteness of the argument is used. The kernel's side is its generated value leg; the
  reference's run is read off its straight line of host operations; the idealization rewrote nothing.
-/
import proofs.«121514_j64252710748372_2_alg».proof.Defs
import proofs.«121514_j64252710748372_2_alg».proof.Proof.Gen.Kernel
import proofs.«121514_j64252710748372_2_alg».proof.Proof.Gen.Kernel.Frame
import proofs.«121514_j64252710748372_2_alg».proof.Proof.Gen.KernelIdeal
import proofs.«121514_j64252710748372_2_alg».proof.Proof.Gen.KernelIdeal.Frame
import proofs.«121514_j64252710748372_2_alg».proof.Proof.Gen.KernelIdeal.Value
import proofs.«121514_j64252710748372_2_alg».proof.Proof.Gen.ReferenceIdeal
import proofs.«121514_j64252710748372_2_alg».proof.Proof.Gen.Pre_finite_inputs
import proofs.«121514_j64252710748372_2_alg».proof.Proof.RefOut
import proofs.«121514_j64252710748372_2_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs and leaves its argument unchanged. -/
theorem frame_k : Cert.frame_Kernel := fun m ρ _ => Cert.Kernel.Gen.frame m ρ

/-- So does the kernel read at the ideal instance. -/
theorem frame_ki : Cert.frame_KernelIdeal := fun m ρ _ => Cert.KernelIdeal.Gen.frame m ρ

/-- The reference runs and leaves its argument unchanged: its run with the result forgotten. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories agreeing on the argument both programs end, the kernel's result array at the thresholded
    argument and the reference's at its round trip of the same argument: one function. -/
theorem algebraic : Cert.algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [hagree c]
  exact Cert.ReferenceIdeal.RefTerm.out_eq _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
